-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x127 : Shape := ⟨3, ![4, 4096, 127]⟩
abbrev S64x127 : Shape := ⟨2, ![64, 127]⟩
abbrev S64 : Shape := ⟨1, ![64]⟩
abbrev S_ : Shape := ⟨0, ![]⟩

class Facts : Prop where
  bcast_S_S4x4096x127 : S_.BroadcastsInDim S4x4096x127 (![] : Fin 0 → Fin S4x4096x127.rank)
  reducesTo_S4x4096x127_S_d0_1_2 : S4x4096x127.ReducesTo [0, 1, 2] S_
  h_S_ : 0 < S_.numel
  bcast_S_S64x127 : S_.BroadcastsInDim S64x127 (![] : Fin 0 → Fin S64x127.rank)
  reducesTo_S64x127_S_d0_1 : S64x127.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x4096x127 .f32) (main_arg1 : FVec F S4x4096x127 .f32) (main_arg2 : FVec F S64x127 .f32) (main_arg3 : FVec F S64 .f32) : IVec S_ 1 :=
  let main_v0 : FVec F S4x4096x127 .f32 := Host.absf main_arg0
  let main_cst : FVec F S_ .f32 := constant S_ .f32 0x7F800000#32
  let main_v1 : FVec F S4x4096x127 .f32 := broadcastInDim S4x4096x127 ![] bcast_S_S4x4096x127 main_cst
  let main_v2 : IVec S4x4096x127 1 := cmpf .olt main_v0 main_v1
  let main_c : IVec S_ 1 := constantI S_ 1 1#1
  let main_v3 : IVec S_ 1 := (fun x v => Host.reduce IntOp.andi x v reducesTo_S4x4096x127_S_d0_1_2 h_S_) main_v2 main_c
  let main_v4 : FVec F S4x4096x127 .f32 := Host.absf main_arg1
  let main_cst_0 : FVec F S_ .f32 := constant S_ .f32 0x7F800000#32
  let main_v5 : FVec F S4x4096x127 .f32 := broadcastInDim S4x4096x127 ![] bcast_S_S4x4096x127 main_cst_0
  let main_v6 : IVec S4x4096x127 1 := cmpf .olt main_v4 main_v5
  let main_c_1 : IVec S_ 1 := constantI S_ 1 1#1
  let main_v7 : IVec S_ 1 := (fun x v => Host.reduce IntOp.andi x v reducesTo_S4x4096x127_S_d0_1_2 h_S_) main_v6 main_c_1
  let main_v8 : IVec S_ 1 := andi main_v3 main_v7
  let main_v9 : FVec F S64x127 .f32 := Host.absf main_arg2
  let main_cst_2 : FVec F S_ .f32 := constant S_ .f32 0x7F800000#32
  let main_v10 : FVec F S64x127 .f32 := broadcastInDim S64x127 ![] bcast_S_S64x127 main_cst_2
  let main_v11 : IVec S64x127 1 := cmpf .olt main_v9 main_v10
  let main_c_3 : IVec S_ 1 := constantI S_ 1 1#1
  let main_v12 : IVec S_ 1 := (fun x v => Host.reduce IntOp.andi x v reducesTo_S64x127_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x4096x127 : Shape := ⟨3, ![4, 4096, 127]⟩
abbrev S64x127 : Shape := ⟨2, ![64, 127]⟩
abbrev S64 : Shape := ⟨1, ![64]⟩
abbrev S_ : Shape := ⟨0, ![]⟩
abbrev S4x4096x128 : Shape := ⟨3, ![4, 4096, 128]⟩
abbrev S64x128 : Shape := ⟨2, ![64, 128]⟩
abbrev S1x1024x128 : Shape := ⟨3, ![1, 1024, 128]⟩
abbrev S1x4096x128 : Shape := ⟨3, ![1, 4096, 128]⟩
abbrev S1024x128 : Shape := ⟨2, ![1024, 128]⟩
abbrev S1024x1 : Shape := ⟨2, ![1024, 1]⟩
abbrev S4096x64 : Shape := ⟨2, ![4096, 64]⟩
abbrev S4096x128 : Shape := ⟨2, ![4096, 128]⟩
abbrev S128x64 : Shape := ⟨2, ![128, 64]⟩
abbrev S1x64 : Shape := ⟨2, ![1, 64]⟩
abbrev S1024x64 : Shape := ⟨2, ![1024, 64]⟩
abbrev S512x64 : Shape := ⟨2, ![512, 64]⟩
abbrev S512x128 : Shape := ⟨2, ![512, 128]⟩
abbrev S64x512 : Shape := ⟨2, ![64, 512]⟩
abbrev S1024x512 : Shape := ⟨2, ![1024, 512]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x127, .f32⟩
  | .hbm, ⟨1, _⟩ => ⟨S4x4096x127, .f32⟩
  | .hbm, ⟨2, _⟩ => ⟨S64x127, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S4x4096x128, .f32⟩
  | .hbm, ⟨7, _⟩ => ⟨S_, .i32⟩
  | .hbm, ⟨8, _⟩ => ⟨S_, .f32⟩
  | .hbm, ⟨9, _⟩ => ⟨S4x4096x128, .f32⟩
  | .hbm, ⟨10, _⟩ => ⟨S_, .i32⟩
  | .hbm, ⟨11, _⟩ => ⟨S_, .f32⟩
  | .hbm, ⟨12, _⟩ => ⟨S64x128, .f32⟩
  | .hbm, ⟨13, _⟩ => ⟨S4x4096x128, .f32⟩
  | .hbm, ⟨14, _⟩ => ⟨S4x4096x127, .f32⟩
  | .local _ .vmem, ⟨0, _⟩ => ⟨S1x1024x128, .f32⟩
  | .local _ .vmem, ⟨1, _⟩ => ⟨S1x1024x128, .f32⟩
  | .local _ .vmem, ⟨2, _⟩ => ⟨S1x4096x128, .f32⟩
  | .local _ .vmem, ⟨3, _⟩ => ⟨S1x4096x128, .f32⟩
  | .local _ .vmem, ⟨4, _⟩ => ⟨S64x128, .f32⟩
  | .local _ .vmem, ⟨5, _⟩ => ⟨S64, .f32⟩
  | .local _ .vmem, ⟨6, _⟩ => ⟨S1x1024x128, .f32⟩
  | .local _ .vmem, ⟨7, _⟩ => ⟨S1x1024x128, .f32⟩
  | .local _ .vmem, ⟨8, _⟩ => ⟨S1024x128, .f32⟩
  | .local _ .vmem, ⟨9, _⟩ => ⟨S1024x1, .f32⟩
  | .local _ .vmem, ⟨10, _⟩ => ⟨S1024x1, .f32⟩
  | .local _ .vmem, ⟨11, _⟩ => ⟨S4096x64, .bf16⟩
  | .local _ .vmem, ⟨12, _⟩ => ⟨S4096x128, .bf16⟩
  | _, _ => ⟨S4x4096x127, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_15 : BitVec 32 := 0#32
  let c8_i32 : BitVec 32 := 8#32
  let v28 : BitVec 32 := Scalar.addi c0_i32_15 c8_i32
  let c1_i32 : BitVec 32 := 1#32
  ⟨c0_i32_15, v28, c1_i32⟩
def k0_mult1 (k0_t1 : Fin k0_t1_loop.trips) : BitVec 32 :=
  let c0_i32_15 : BitVec 32 := 0#32
  let c1_i32 : BitVec 32 := 1#32
  let arg12 : BitVec 32 := Scf.iv c0_i32_15 c1_i32 k0_t1
  let c512_i32 : BitVec 32 := 512#32
  let v36 : BitVec 32 := Scalar.muli arg12 c512_i32
  v36
def k0_off1 (k0_t1 : Fin k0_t1_loop.trips) : Fin 2 → Nat :=
  let c0_i32_15 : BitVec 32 := 0#32
  let c1_i32 : BitVec 32 := 1#32
  let arg12 : BitVec 32 := Scf.iv c0_i32_15 c1_i32 k0_t1
  let c512_i32 : BitVec 32 := 512#32
  let v36 : BitVec 32 := Scalar.muli arg12 c512_i32
  let v37 : BitVec 32 := v36
  let v38 : Index := Scalar.indexCast v37
  let c0_24 : Index := 0#32
  ![v38.toNat, 0]
def k0_off2 (k0_t1 : Fin k0_t1_loop.trips) : Fin 2 → Nat :=
  let c0_i32_15 : BitVec 32 := 0#32
  let c1_i32 : BitVec 32 := 1#32
  let arg12 : BitVec 32 := Scf.iv c0_i32_15 c1_i32 k0_t1
  let c512_i32 : BitVec 32 := 512#32
  let v36 : BitVec 32 := Scalar.muli arg12 c512_i32
  let v37 : BitVec 32 := v36
  let v40 : Index := Scalar.indexCast v37
  let c0_25 : Index := 0#32
  ![v40.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S4x4096x127_S4x4096x128_000_000_010 : S4x4096x127.Pads (![0, 0, 0] : Fin 3 → Nat) ![0, 0, 1] ![0, 0, 0] S4x4096x128
  h_S_ : 0 < S_.numel
  pads_S64x127_S64x128_000_010 : S64x127.Pads (![0, 0] : Fin 2 → Nat) ![0, 1] ![0, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S64_S64_0 : ∀ a, (![0] : Fin 1 → Nat) a + S64.size a ≤ S64.size a
  h_S64 : 0 < S64.numel
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  transposes_S64x128_p1_0_S128x64 : S64x128.Transposes [1, 0] S128x64
  shapeCasts_S64_S1x64 : S64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1x64_S1024x64 : S1x64.Broadcasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S512x64 : 0 < S512x64.numel
  h_S512x128 : 0 < S512x128.numel
  transposes_S512x64_p1_0_S64x512 : S512x64.Transposes [1, 0] S64x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  shapeCasts_S1024x128_S1x1024x128 : S1024x128.ShapeCasts S1x1024x128
  slices_S4x4096x128_S4x4096x127_0_0_0 : S4x4096x128.Slices ![0, 0, 0] S4x4096x127
  dot_S4096x128_S128x64_S4096x64_1_0_0_1_n_n_wf : DotDims.WF S4096x128 S128x64 S4096x64 [1] [0] [0] [1] [] []
  dot_S1024x128_S128x64_S1024x64_1_0_0_1_n_n_wf : DotDims.WF S1024x128 S128x64 S1024x64 [1] [0] [0] [1] [] []
  dot_S1024x64_S64x512_S1024x512_1_0_0_1_n_n_wf : DotDims.WF S1024x64 S64x512 S1024x512 [1] [0] [0] [1] [] []
  dot_S1024x512_S512x128_S1024x128_1_0_0_1_n_n_wf : DotDims.WF S1024x512 S512x128 S1024x128 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S4096x64.size a
  k0_off2_inb : ∀ k0_t1 : Fin k0_t1_loop.trips, ∀ a, (k0_off2 k0_t1) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S4x4096x128.size a
  hwx0_4 : ∀ i : grid0.Coords, EltTy.bits .f32 = 32 ∨ (Rect.block (s := S4x4096x128) S1x1024x128.size (cc0_transform_4 i) (hinb0_4 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x127 : Shape := ⟨3, ![4, 4096, 127]⟩
abbrev S64x127 : Shape := ⟨2, ![64, 127]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x127, .f32⟩
  | .hbm, ⟨1, _⟩ => ⟨S4x4096x127, .f32⟩
  | .hbm, ⟨2, _⟩ => ⟨S64x127, .f32⟩
  | .hbm, ⟨3, _⟩ => ⟨S64, .f32⟩
  | .hbm, ⟨4, _⟩ => ⟨S4x4096x64, .f32⟩
  | .hbm, ⟨5, _⟩ => ⟨S1x1x64, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S1x1x64, .f32⟩
  | .hbm, ⟨10, _⟩ => ⟨S4x4096x64, .f32⟩
  | .hbm, ⟨11, _⟩ => ⟨S4x4096x64, .f32⟩
  | .hbm, ⟨12, _⟩ => ⟨S4x4096x4096, .f32⟩
  | .hbm, ⟨13, _⟩ => ⟨S_, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x127, .f32⟩
  | _, _ => ⟨S4x4096x127, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x127_S64x127_S4x4096x64_2_1_01_0_n_n_wf : DotDims.WF S4x4096x127 S64x127 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x127_S4x4096x127_2_1_1_2_0_0_wf : DotDims.WF S4x4096x4096 S4x4096x127 S4x4096x127 [2] [1] [1] [2] [0] [0]

variable [Facts₀]

def dot_S4x4096x127_S64x127_S4x4096x64_2_1_01_0_n_n : DotDims S4x4096x127 S64x127 S4x4096x64 where
  lhsContracting := [2]
  rhsContracting := [1]
  lhsNonContracting := [0, 1]
  rhsNonContracting := [0]
  lhsBatch := []
  rhsBatch := []
  wf := dot_S4x4096x127_S64x127_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x127_S4x4096x127_2_1_1_2_0_0 : DotDims S4x4096x4096 S4x4096x127 S4x4096x127 where
  lhsContracting := [2]
  rhsContracting := [1]
  lhsNonContracting := [1]
  rhsNonContracting := [2]
  lhsBatch := [0]
  rhsBatch := [0]
  wf := dot_S4x4096x4096_S4x4096x127_S4x4096x127_2_1_1_2_0_0_wf

class Facts : Prop extends Facts₀ where

variable [Facts]
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.FiniteInputs.lean ====
/-
  The finiteness precondition makes every input entry a real number.

  The precondition tests, for each of the four float arrays, that every entry's absolute value compares below the
  word of +∞, folds each array's tests into one bit by "and" from the constant 1, and joins the four bits by "and".
  If the result is 1 then each of the four bits is 1, so each array's every test is 1, so each entry is neither +∞
  nor −∞ (nor anything else an extended real could be besides a real): it is the coercion of a real number. Choosing
  that real number at every index gives four real arrays whose coercions are the inputs.
-/
import proofs.«178170_j39676907882803_2_alg».proof.Pre_finite_inputs
import proofs.«178170_j39676907882803_2_alg».proof.Proof.Gen.Pre_finite_inputs
import proofs.«178170_j39676907882803_2_alg».proof.Proof.LibFiniteEntry
import Idealize.ShloMosaic.Lib.ReduceAll

noncomputable section

namespace Cert.FiniteInputs

open Idealize.ShloMosaic

/-- One array's test: if the "and" over all entries of "|entry| is below the word of +∞" is 1, every entry is a real. -/
theorem entry_real {s : Shape} {axes : List (Fin s.rank)} (x : s.Idx → EReal)
    (bc : (⟨0, ![]⟩ : Shape).BroadcastsInDim s (![] : Fin 0 → Fin s.rank))
    (h : s.ReducesTo axes ⟨0, ![]⟩) (hu : 0 < (⟨0, ![]⟩ : Shape).numel) (j : (⟨0, ![]⟩ : Shape).Idx)
    (e : Host.reduce IntOp.andi
          (cmpf (F := Ideal) (φ := .f32) .olt (Host.absf (F := Ideal) (φ := .f32) x)
            (broadcastInDim s ![] bc (constant (F := Ideal) ⟨0, ![]⟩ .f32 0x7F800000#32)))
          (constantI ⟨0, ![]⟩ 1 1#1) h hu j = 1#1) (i : s.Idx) :
    ∃ r : ℝ, x i = (r : EReal) :=
  Cert.FiniteEntry.real_of_abs_lt_top (x i) (Host.reduce_andi_all _ _ h hu j e i)

/-- Under the precondition the four inputs are the coercions of four real arrays. -/
theorem reals_of_pre [Cert.Pre_finite_inputs.Facts]
    (x0 x1 : Cert.Pre_finite_inputs.S4x4096x127.Idx → EReal) (x2 : Cert.Pre_finite_inputs.S64x127.Idx → EReal)
    (x3 : Cert.Pre_finite_inputs.S64.Idx → EReal)
    (h : Cert.Pre_finite_inputs.fn (F := Ideal) x0 x1 x2 x3 = fun _ => 1#1) :
    ∃ (r1 r2 : Cert.Pre_finite_inputs.S4x4096x127.Idx → ℝ) (w : Cert.Pre_finite_inputs.S64x127.Idx → ℝ)
      (c : Cert.Pre_finite_inputs.S64.Idx → ℝ),
      x0 = (fun i => ((r1 i : ℝ) : EReal)) ∧ x1 = (fun i => ((r2 i : ℝ) : EReal))
        ∧ x2 = (fun i => ((w i : ℝ) : EReal)) ∧ x3 = (fun i => ((c i : ℝ) : EReal)) := by
  have e := congrFun h (fun a => a.elim0)
  dsimp only [Cert.Pre_finite_inputs.fn, Cert.Pre_finite_inputs.fn_part1] at e
  -- the four bits, joined by "and" at the one index of the rank-0 result
  change IntOp.andi (IntOp.andi (IntOp.andi _ _) _) _ = 1#1 at e
  rw [IntOp.andi_eq_one, IntOp.andi_eq_one, IntOp.andi_eq_one] at e
  obtain ⟨⟨⟨e0, e1⟩, e2⟩, e3⟩ := e
  choose r1 hr1 using entry_real x0 _ _ _ _ e0
  choose r2 hr2 using entry_real x1 _ _ _ _ e1
  choose w hw using entry_real x2 _ _ _ _ e2
  choose c hc using entry_real x3 _ _ _ _ e3
  exact ⟨r1, r2, w, c, funext hr1, funext hr2, funext hw, funext hc⟩

end Cert.FiniteInputs

end
-- ==== Proof.AttnSpec.lean ====
/-
  The specification: scaled dot-product attention with one shared linear projection, over real arrays.

  For a batch b, a query row s and a key row t, both rows are projected by the same affine map
  (row · Wᵀ + c, 127 features to 64), the score is the inner product of the two projections times 8 (= √64),
  and the result at feature f is the softmax-weighted mean over t of the value rows x2[b, t, f]:

      attn b s f = (Σ_t e^{score b s t} · x2[b,t,f]) / (Σ_t e^{score b s t}).

  The softmax is written in its max-free form: subtracting any real number from every score of a row leaves the
  quotient unchanged, which is what lets a running maximum and the row's true maximum meet here.
-/
import Idealize.ShloMosaic.PureOps.Ideal
import Idealize.ShloMosaic.Lib.ValueIdx

noncomputable section

namespace Cert.AttnSpec

open Idealize.ShloMosaic Idealize.ShloMosaic.ValueIdx

/-- The shape of x1, x2 and of the result: batch × rows × features. -/
abbrev SX : Shape := ⟨3, ![4, 4096, 127]⟩
/-- The projection matrix: 64 × 127. -/
abbrev SW : Shape := ⟨2, ![64, 127]⟩
/-- The projection's offset. -/
abbrev SB : Shape := ⟨1, ![64]⟩

/-- Row s of batch b of `r`, projected: Σ_f r[b,s,f] · w[d,f] + c[d]. -/
def proj (r : SX.Idx → ℝ) (w : SW.Idx → ℝ) (c : SB.Idx → ℝ) (b : Fin 4) (s : Fin 4096) (d : Fin 64) : ℝ :=
  (∑ f : Fin 127, r (ix3 b s f) * w (ix2 d f)) + c (ix1 d)

/-- The scaled score of query row s (of r1) against key row t (of r2). -/
def score (r1 r2 : SX.Idx → ℝ) (w : SW.Idx → ℝ) (c : SB.Idx → ℝ) (b : Fin 4) (s t : Fin 4096) : ℝ :=
  (∑ d : Fin 64, proj r1 w c b s d * proj r2 w c b t d) * 8

/-- The softmax-weighted mean of the value rows, in max-free form. -/
def attn (r1 r2 : SX.Idx → ℝ) (w : SW.Idx → ℝ) (c : SB.Idx → ℝ) (b : Fin 4) (s : Fin 4096) (f : Fin 127) : ℝ :=
  (∑ t : Fin 4096, Real.exp (score r1 r2 w c b s t) * r2 (ix3 b t f)) / (∑ t : Fin 4096, Real.exp (score r1 r2 w c b s t))

/-- The whole result array, as extended reals. -/
def G (r1 r2 : SX.Idx → ℝ) (w : SW.Idx → ℝ) (c : SB.Idx → ℝ) : SX.Idx → EReal :=
  fun i => ((attn r1 r2 w c (i 0) (i 1) (i 2) : ℝ) : EReal)

theorem G_ix3 (r1 r2 : SX.Idx → ℝ) (w : SW.Idx → ℝ) (c : SB.Idx → ℝ) (b : Fin 4) (s : Fin 4096) (f : Fin 127) :
    G r1 r2 w c (ix3 b s f) = ((attn r1 r2 w c b s f : ℝ) : EReal) := rfl

end Cert.AttnSpec

end
-- ==== Proof.OnlineSoftmax.lean ====
/-
  The running softmax of one row, on the extended reals, against the plain softmax.

  A row's scores arrive tile by tile. The running state is (m, l, a): the maximum so far (−∞ before the first tile),
  the sum of e^{score − m} so far, and the sum of e^{score − m}·value so far. One tile with scores s_t and values x_t
  moves it to
      m' = max m (max_t s_t),   l' = e^{m − m'}·l + Σ_t e^{s_t − m'},   a' = e^{m − m'}·a + Σ_t e^{s_t − m'}·x_t,
  where e^{−∞} = 0 makes the first tile start from nothing. After at least one tile m is a real number μ and
  l = Σ e^{s − μ}, a = Σ e^{s − μ}·x over everything seen, because e^{s − m}·e^{m − m'} = e^{s − m'}; so
  a / l = (Σ e^{s}·x) / (Σ e^{s}), whatever μ is. The plain softmax, which subtracts the row's maximum M first and
  divides each weight by the total, gives the same quotient for the same reason, for any real M.
-/
import Mathlib
import Idealize.ShloMosaic.PureOps.Ideal

noncomputable section

namespace Cert.OnlineSoftmax

open Idealize.ShloMosaic

variable {T : ℕ}

/-- One tile's update of the running state (m, l, a). -/
def trip (s x : Fin T → ℝ) (st : EReal × EReal × EReal) : EReal × EReal × EReal :=
  (max st.1 (Finset.univ.fold max (⊥ : EReal) (fun t => ((s t : ℝ) : EReal))),
   Ideal.exp (st.1 - max st.1 (Finset.univ.fold max (⊥ : EReal) (fun t => ((s t : ℝ) : EReal)))) * st.2.1
     + ∑ t, Ideal.exp (((s t : ℝ) : EReal) - max st.1 (Finset.univ.fold max (⊥ : EReal) (fun t => ((s t : ℝ) : EReal)))),
   Ideal.exp (st.1 - max st.1 (Finset.univ.fold max (⊥ : EReal) (fun t => ((s t : ℝ) : EReal)))) * st.2.2
     + ∑ t, Ideal.exp (((s t : ℝ) : EReal) - max st.1 (Finset.univ.fold max (⊥ : EReal) (fun t => ((s t : ℝ) : EReal))))
         * ((x t : ℝ) : EReal))

/-- The state after the first j tiles, from (−∞, 0, 0). -/
def run (s x : ℕ → Fin T → ℝ) : ℕ → EReal × EReal × EReal
  | 0 => (⊥, 0, 0)
  | j + 1 => trip (s j) (x j) (run s x j)

/-- The coercion of a finite real sum is the sum of the coercions. -/
theorem coe_finsum {α : Type*} (S : Finset α) (f : α → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- e^{a − b} for real a, b, computed on the extended reals. -/
theorem exp_coe_sub (a b : ℝ) :
    Ideal.exp ((a : EReal) - (b : EReal)) = ((Real.exp (a - b) : ℝ) : EReal) := by
  rw [← EReal.coe_sub, Ideal.exp_coe]

/-- The running maximum over a finite set, started from −∞: −∞ on the empty set, a real number otherwise. -/
theorem fold_max_aux {ι : Type*} (s : ι → ℝ) (S : Finset ι) :
    (S = ∅ ∧ S.fold max (⊥ : EReal) (fun i => ((s i : ℝ) : EReal)) = ⊥) ∨
      ∃ M : ℝ, S.fold max (⊥ : EReal) (fun i => ((s i : ℝ) : EReal)) = (M : EReal) := by
  classical
  induction S using Finset.induction_on with
  | empty => exact Or.inl ⟨rfl, Finset.fold_empty⟩
  | insert a S ha ih =>
    right
    rw [Finset.fold_insert ha]
    rcases ih with ⟨_, h⟩ | ⟨M, h⟩
    · rw [h]; exact ⟨s a, max_eq_left bot_le⟩
    · rw [h]; exact ⟨max (s a) M, (EReal.coe_strictMono.monotone.map_max).symm⟩

/-- If numerator and denominator carry the same nonzero factor c, the quotient does not see it. -/
theorem quot_cancel (A L A' L' c : ℝ) (hc : c ≠ 0) (hL : L ≠ 0) (hA' : A' = c * A) (hL' : L' = c * L) :
    A' * (1 / L') = A / L := by
  rw [hA', hL']; field_simp

/-- The maximum of finitely many (at least one) real numbers, from −∞, is a real number. -/
theorem fold_max_real {ι : Type*} [Fintype ι] [Nonempty ι] (s : ι → ℝ) :
    ∃ M : ℝ, Finset.univ.fold max (⊥ : EReal) (fun i => ((s i : ℝ) : EReal)) = (M : EReal) := by
  rcases fold_max_aux s Finset.univ with ⟨h, _⟩ | h
  · exact absurd h Finset.univ_nonempty.ne_empty
  · exact h

/-- The first tile, from (−∞, 0, 0): e^{−∞} = 0 removes the old state, and m becomes the tile's maximum μ. -/
theorem trip_bot [NeZero T] (s x : Fin T → ℝ) :
    ∃ μ : ℝ, trip s x (⊥, 0, 0)
      = ((μ : EReal), ((∑ t, Real.exp (s t - μ) : ℝ) : EReal),
          ((∑ t, Real.exp (s t - μ) * x t : ℝ) : EReal)) := by
  haveI : Nonempty (Fin T) := ⟨0⟩
  obtain ⟨M, hM⟩ := fold_max_real s
  refine ⟨M, ?_⟩
  have hmax : max (⊥ : EReal) (M : EReal) = (M : EReal) := max_eq_right bot_le
  unfold trip
  simp only [hM, hmax, EReal.bot_sub, Ideal.exp_bot, mul_zero, zero_add, exp_coe_sub, ← EReal.coe_mul,
    ← coe_finsum]

/-- A tile from a real state (μ, l, a): the new maximum μ' is real and everything stays real. -/
theorem trip_coe [NeZero T] (s x : Fin T → ℝ) (μ l a : ℝ) :
    ∃ μ' : ℝ, trip s x ((μ : EReal), (l : EReal), (a : EReal))
      = ((μ' : EReal), ((Real.exp (μ - μ') * l + ∑ t, Real.exp (s t - μ') : ℝ) : EReal),
          ((Real.exp (μ - μ') * a + ∑ t, Real.exp (s t - μ') * x t : ℝ) : EReal)) := by
  haveI : Nonempty (Fin T) := ⟨0⟩
  obtain ⟨M, hM⟩ := fold_max_real s
  refine ⟨max μ M, ?_⟩
  have hmax : max (μ : EReal) (M : EReal) = ((max μ M : ℝ) : EReal) :=
    (EReal.coe_strictMono.monotone.map_max).symm
  unfold trip
  simp only [hM, hmax, exp_coe_sub, ← EReal.coe_mul, ← coe_finsum, ← EReal.coe_add]

/-- After n + 1 tiles: m is a real μ, l = Σ e^{s − μ} and a = Σ e^{s − μ}·x over everything seen,
    because e^{μ − μ'}·e^{s − μ} = e^{s − μ'}. -/
theorem run_inv [NeZero T] (s x : ℕ → Fin T → ℝ) (n : ℕ) :
    ∃ μ : ℝ, run s x (n + 1)
      = ((μ : EReal), ((∑ j ∈ Finset.range (n + 1), ∑ t, Real.exp (s j t - μ) : ℝ) : EReal),
          ((∑ j ∈ Finset.range (n + 1), ∑ t, Real.exp (s j t - μ) * x j t : ℝ) : EReal)) := by
  induction n with
  | zero =>
    obtain ⟨μ, h⟩ := trip_bot (s 0) (x 0)
    refine ⟨μ, ?_⟩
    rw [Finset.sum_range_one, Finset.sum_range_one]
    exact h
  | succ n ih =>
    obtain ⟨μ, h⟩ := ih
    obtain ⟨μ', h'⟩ := trip_coe (s (n + 1)) (x (n + 1)) μ
      (∑ j ∈ Finset.range (n + 1), ∑ t, Real.exp (s j t - μ))
      (∑ j ∈ Finset.range (n + 1), ∑ t, Real.exp (s j t - μ) * x j t)
    refine ⟨μ', ?_⟩
    have e : ∀ j t, Real.exp (μ - μ') * Real.exp (s j t - μ) = Real.exp (s j t - μ') := by
      intro j t; rw [← Real.exp_add]; congr 1; ring
    have e1 : Real.exp (μ - μ') * (∑ j ∈ Finset.range (n + 1), ∑ t, Real.exp (s j t - μ))
          + ∑ t, Real.exp (s (n + 1) t - μ')
        = ∑ j ∈ Finset.range (n + 1 + 1), ∑ t, Real.exp (s j t - μ') := by
      rw [Finset.sum_range_succ _ (n + 1), Finset.mul_sum]
      congr 1
      refine Finset.sum_congr rfl fun j _ => ?_
      rw [Finset.mul_sum]
      exact Finset.sum_congr rfl fun t _ => e j t
    have e2 : Real.exp (μ - μ') * (∑ j ∈ Finset.range (n + 1), ∑ t, Real.exp (s j t - μ) * x j t)
          + ∑ t, Real.exp (s (n + 1) t - μ') * x (n + 1) t
        = ∑ j ∈ Finset.range (n + 1 + 1), ∑ t, Real.exp (s j t - μ') * x j t := by
      rw [Finset.sum_range_succ _ (n + 1), Finset.mul_sum]
      congr 1
      refine Finset.sum_congr rfl fun j _ => ?_
      rw [Finset.mul_sum]
      exact Finset.sum_congr rfl fun t _ => by rw [← mul_assoc, e j t]
    show trip (s (n + 1)) (x (n + 1)) (run s x (n + 1)) = _
    rw [h, h', e1, e2]

/-- After n ≥ 1 tiles the quotient a / l is the softmax-weighted mean in max-free form. -/
theorem run_div [NeZero T] (s x : ℕ → Fin T → ℝ) (n : ℕ) (hn : 0 < n) :
    Ideal.div (run s x n).2.2 (run s x n).2.1
      = (((∑ j ∈ Finset.range n, ∑ t, Real.exp (s j t) * x j t) / (∑ j ∈ Finset.range n, ∑ t, Real.exp (s j t)) : ℝ) : EReal) := by
  haveI : Nonempty (Fin T) := ⟨0⟩
  obtain ⟨m, rfl⟩ : ∃ m, n = m + 1 := Nat.exists_eq_succ_of_ne_zero hn.ne'
  obtain ⟨μ, h⟩ := run_inv s x m
  have hne : (Finset.range (m + 1)).Nonempty := Finset.nonempty_range_iff.mpr (Nat.succ_ne_zero m)
  have hpos : 0 < ∑ j ∈ Finset.range (m + 1), ∑ t, Real.exp (s j t) :=
    Finset.sum_pos (fun j _ => Finset.sum_pos (fun t _ => Real.exp_pos _) Finset.univ_nonempty) hne
  have hpos' : 0 < ∑ j ∈ Finset.range (m + 1), ∑ t, Real.exp (s j t - μ) :=
    Finset.sum_pos (fun j _ => Finset.sum_pos (fun t _ => Real.exp_pos _) Finset.univ_nonempty) hne
  rw [h]
  simp only
  rw [Ideal.div_coe hpos'.ne', ← EReal.coe_mul]
  refine congrArg _ ?_
  refine quot_cancel _ _ _ _ (Real.exp (-μ)) (Real.exp_pos _).ne' hpos.ne' ?_ ?_
  · rw [Finset.mul_sum]; refine Finset.sum_congr rfl fun j _ => ?_
    rw [Finset.mul_sum]; refine Finset.sum_congr rfl fun t _ => ?_
    rw [sub_eq_add_neg, Real.exp_add]; ring
  · rw [Finset.mul_sum]; refine Finset.sum_congr rfl fun j _ => ?_
    rw [Finset.mul_sum]; refine Finset.sum_congr rfl fun t _ => ?_
    rw [sub_eq_add_neg, Real.exp_add]; ring

/-- The plain softmax with any real M subtracted, each weight divided by the total (a sum started from 0), then the
    weighted sum of the values: the same quotient. -/
theorem softmax_div {ι : Type*} [Fintype ι] [Nonempty ι] (s x : ι → ℝ) (M : ℝ) :
    ∑ i, Ideal.div (Ideal.exp (((s i : ℝ) : EReal) - (M : EReal))) (0 + ∑ i', Ideal.exp (((s i' : ℝ) : EReal) - (M : EReal)))
        * ((x i : ℝ) : EReal)
      = (((∑ i, Real.exp (s i) * x i) / (∑ i, Real.exp (s i)) : ℝ) : EReal) := by
  have hpos : 0 < ∑ i, Real.exp (s i) :=
    Finset.sum_pos (fun i _ => Real.exp_pos _) Finset.univ_nonempty
  have hpos' : 0 < ∑ i, Real.exp (s i - M) :=
    Finset.sum_pos (fun i _ => Real.exp_pos _) Finset.univ_nonempty
  simp only [zero_add, exp_coe_sub, ← coe_finsum, Ideal.div_coe hpos'.ne', ← EReal.coe_mul]
  refine congrArg _ ?_
  have hsum : ∑ i, Real.exp (s i - M) * (1 / ∑ i', Real.exp (s i' - M)) * x i
      = (∑ i, Real.exp (s i - M) * x i) * (1 / ∑ i', Real.exp (s i' - M)) := by
    rw [Finset.sum_mul]; exact Finset.sum_congr rfl fun i _ => by ring
  rw [hsum]
  refine quot_cancel _ _ _ _ (Real.exp (-M)) (Real.exp_pos _).ne' hpos.ne' ?_ ?_
  · rw [Finset.mul_sum]; refine Finset.sum_congr rfl fun i _ => ?_
    rw [sub_eq_add_neg, Real.exp_add]; ring
  · rw [Finset.mul_sum]; refine Finset.sum_congr rfl fun i _ => ?_
    rw [sub_eq_add_neg, Real.exp_add]; ring

/-- The maximum of finitely many (at least one) real numbers, taken on the extended reals from −∞, is a real number. -/
theorem fold_max_coe {ι : Type*} [Fintype ι] [Nonempty ι] (s : ι → ℝ) :
    ∃ M : ℝ, Finset.univ.fold max (⊥ : EReal) (fun i => ((s i : ℝ) : EReal)) = (M : EReal) :=
  fold_max_real s

end Cert.OnlineSoftmax

end
-- ==== Proof.RefAttn.lean ====
/-
  The reference is the specification.

  On inputs that are coercions of real arrays r1, r2, w, c, the reference program computes, entry by entry, the
  coercion of the specification's attention:

    q[b,s,d] = Σ_f r1[b,s,f]·w[d,f] + c[d],   k[b,t,d] = Σ_f r2[b,t,f]·w[d,f] + c[d]        (the two projections),
    scores[b,s,t] = (Σ_d q[b,s,d]·k[b,t,d]) · √64,   and √64 = 8                              (the scaled scores),
    M[b,s] = max(−∞, max_t scores[b,s,t]), a real number because the row has 4096 ≥ 1 real scores,
    e[b,s,t] = exp(scores[b,s,t] − M[b,s]),   L[b,s] = 0 + Σ_t e[b,s,t],   p = e / L,
    out[b,s,f] = Σ_t p[b,s,t] · r2[b,t,f].

  Every sum of products of coercions is the coercion of the real sum of products, so q, k and the scores are the
  coercions of the specification's proj and score. The row maximum is some real M; the plain softmax with any real M
  subtracted, each weight divided by the total, then summed against the values, is the max-free quotient
  (Σ_t e^{score}·r2) / (Σ_t e^{score}), which is the specification's attn.
-/
import proofs.«178170_j39676907882803_2_alg».proof.Proof.Gen.ReferenceIdeal.Read
import proofs.«178170_j39676907882803_2_alg».proof.Proof.AttnSpec
import proofs.«178170_j39676907882803_2_alg».proof.Proof.OnlineSoftmax

noncomputable section

namespace Cert.ReferenceIdeal.RefValue

open Cert.ReferenceIdeal Cert.ReferenceIdeal.Read Cert.AttnSpec Idealize.ShloMosaic Idealize.ShloMosaic.ValueIdx
open scoped BigOperators

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The word 0x42800000 is 64, and its square root is 8. -/
theorem sqrt_const : Ideal.sqrt (Ideal.ofBits .f32 0x42800000#32) = ((8 : ℝ) : EReal) := by
  have h : Ideal.ofBits .f32 0x42800000#32 = ((64 : ℝ) : EReal) := by
    simp [Ideal.ofBits, Ideal.ieee, -EReal.coe_mul]; norm_num
  rw [h, Ideal.sqrt_coe, if_neg (by norm_num)]
  congr 1
  rw [show (64 : ℝ) = 8 ^ 2 by norm_num]
  exact Real.sqrt_sq (by norm_num)

/-- The word 0xFF800000 is −∞. -/
theorem ofBits_neg_inf : Ideal.ofBits .f32 0xFF800000#32 = (⊥ : EReal) := by
  simp [Ideal.ofBits, Ideal.ieee]

variable (r1 r2 : SX.Idx → ℝ) (w : SW.Idx → ℝ) (c : SB.Idx → ℝ)

/-- The projected query row at (b, s, d) is the coercion of the specification's projection. -/
theorem q_eq (r : SX.Idx → ℝ) (b : Fin 4) (s : Fin 4096) (d : Fin 64) :
    val_main_v3 (F := Ideal) (fun i => ((r i : ℝ) : EReal)) (fun i => ((w i : ℝ) : EReal)) (fun i => ((c i : ℝ) : EReal)) (ix3 b s d)
      = ((proj r w c b s d : ℝ) : EReal) := by
  rw [val_main_v3_apply, val_main_v0_apply, val_main_v2_apply, val_main_v1_apply, Ideal.addf_def]
  have e1 : ∀ k : Fin 127, lidx_main_v0 (ix3 b s d) k = ix3 b s k := fun k =>
    funext fun a => Fin.ext (by match a with | ⟨0, _⟩ => rfl | ⟨1, _⟩ => rfl | ⟨2, _⟩ => rfl)
  have e2 : ∀ k : Fin 127, ridx_main_v0 (ix3 b s d) k = ix2 d k := fun k =>
    funext fun a => Fin.ext (by match a with | ⟨0, _⟩ => rfl | ⟨1, _⟩ => rfl)
  have e3 : idx_main_v1 (idx_main_v2 (ix3 b s d)) = ix1 d :=
    funext fun a => Fin.ext (by match a with | ⟨0, _⟩ => rfl)
  simp only [e1, e2, e3]
  unfold proj
  rw [EReal.coe_add, coe_sum]
  simp only [EReal.coe_mul]

/-- The projected key row likewise. -/
theorem k_eq (r : SX.Idx → ℝ) (b : Fin 4) (s : Fin 4096) (d : Fin 64) :
    val_main_v7 (F := Ideal) (fun i => ((r i : ℝ) : EReal)) (fun i => ((w i : ℝ) : EReal)) (fun i => ((c i : ℝ) : EReal)) (ix3 b s d)
      = ((proj r w c b s d : ℝ) : EReal) := by
  rw [val_main_v7_apply, val_main_v4_apply, val_main_v6_apply, val_main_v5_apply, Ideal.addf_def]
  have e1 : ∀ k : Fin 127, lidx_main_v4 (ix3 b s d) k = ix3 b s k := fun k =>
    funext fun a => Fin.ext (by match a with | ⟨0, _⟩ => rfl | ⟨1, _⟩ => rfl | ⟨2, _⟩ => rfl)
  have e2 : ∀ k : Fin 127, ridx_main_v4 (ix3 b s d) k = ix2 d k := fun k =>
    funext fun a => Fin.ext (by match a with | ⟨0, _⟩ => rfl | ⟨1, _⟩ => rfl)
  have e3 : idx_main_v5 (idx_main_v6 (ix3 b s d)) = ix1 d :=
    funext fun a => Fin.ext (by match a with | ⟨0, _⟩ => rfl)
  simp only [e1, e2, e3]
  unfold proj
  rw [EReal.coe_add, coe_sum]
  simp only [EReal.coe_mul]

/-- The scale: the broadcast square root of 64 is 8 everywhere. -/
theorem scale_eq (i : S4x4096x4096.Idx) : val_main_v10 (F := Ideal) i = ((8 : ℝ) : EReal) := by
  rw [val_main_v10_apply, val_main_v9_apply, val_main_cst_apply, Ideal.hostUnary_sqrt_def, Ideal.ofBits_def]
  exact sqrt_const

/-- The scaled score at (b, s, t) is the coercion of the specification's score. -/
theorem score_eq (b : Fin 4) (s t : Fin 4096) :
    val_main_v11 (F := Ideal) (fun i => ((r1 i : ℝ) : EReal)) (fun i => ((r2 i : ℝ) : EReal)) (fun i => ((w i : ℝ) : EReal))
        (fun i => ((c i : ℝ) : EReal)) (ix3 b s t)
      = ((score r1 r2 w c b s t : ℝ) : EReal) := by
  rw [val_main_v11_apply, val_main_v8_apply, scale_eq, Ideal.mulf_def]
  have e1 : ∀ k : Fin 64, lidx_main_v8 (ix3 b s t) k = ix3 b s k := fun k =>
    funext fun a => Fin.ext (by match a with | ⟨0, _⟩ => rfl | ⟨1, _⟩ => rfl | ⟨2, _⟩ => rfl)
  have e2 : ∀ k : Fin 64, ridx_main_v8 (ix3 b s t) k = ix3 b t k := fun k =>
    funext fun a => Fin.ext (by match a with | ⟨0, _⟩ => rfl | ⟨1, _⟩ => rfl | ⟨2, _⟩ => rfl)
  simp only [e1, e2, q_eq, k_eq]
  unfold score
  rw [EReal.coe_mul, coe_sum]
  simp only [EReal.coe_mul]

/-- The row maximum is a real number: the maximum from −∞ over the row's 4096 scores, joined with −∞ once more. -/
theorem rowmax_eq (b : Fin 4) (s : Fin 4096) :
    ∃ M : ℝ, val_main_v14 (F := Ideal) (fun i => ((r1 i : ℝ) : EReal)) (fun i => ((r2 i : ℝ) : EReal))
        (fun i => ((w i : ℝ) : EReal)) (fun i => ((c i : ℝ) : EReal)) (ix2 b s) = (M : EReal) := by
  obtain ⟨M, hM⟩ := Cert.OnlineSoftmax.fold_max_coe (fun t : Fin 4096 => score r1 r2 w c b s t)
  refine ⟨M, ?_⟩
  have hR : S4x4096x4096.Reduces [2] S4x4096 := by decide
  rw [val_main_v14_apply, val_main_v13_apply, val_main_cst_1_apply, Ideal.maximumf_def, Ideal.ofBits_def, ofBits_neg_inf,
    max_bot_left]
  unfold val_main_v12
  rw [Host.reduce_eq_fold_single FloatOps.maximumf _ _ _ hR]
  have hf : (val_main_v11 (F := Ideal) (fun i => ((r1 i : ℝ) : EReal)) (fun i => ((r2 i : ℝ) : EReal))
        (fun i => ((w i : ℝ) : EReal)) (fun i => ((c i : ℝ) : EReal)) ∘ hR.lift (ix2 b s))
      = fun t : Fin 4096 => ((score r1 r2 w c b s t : ℝ) : EReal) := funext fun k => by
    have hk : hR.lift (ix2 b s) k = ix3 b s (⟨k.val, k.isLt⟩ : Fin 4096) :=
      funext fun a => Fin.ext (by fin_cases a <;> rfl)
    show val_main_v11 (F := Ideal) _ _ _ _ (hR.lift (ix2 b s) k) = _
    rw [hk]
    exact score_eq r1 r2 w c b s _
  refine Eq.trans ?_ hM
  rw [val_main_cst_0_apply, Ideal.ofBits_def, ofBits_neg_inf]
  exact congrArg (fun f => Finset.fold max (⊥ : EReal) f (Finset.univ : Finset (Fin 4096))) hf

/-- One weight: e to the score minus the row maximum. -/
theorem e_eq (b : Fin 4) (s t : Fin 4096) (M : ℝ)
    (hM : val_main_v14 (F := Ideal) (fun i => ((r1 i : ℝ) : EReal)) (fun i => ((r2 i : ℝ) : EReal))
        (fun i => ((w i : ℝ) : EReal)) (fun i => ((c i : ℝ) : EReal)) (ix2 b s) = (M : EReal)) :
    val_main_v18 (F := Ideal) (fun i => ((r1 i : ℝ) : EReal)) (fun i => ((r2 i : ℝ) : EReal))
        (fun i => ((w i : ℝ) : EReal)) (fun i => ((c i : ℝ) : EReal)) (ix3 b s t)
      = Ideal.exp (((score r1 r2 w c b s t : ℝ) : EReal) - (M : EReal)) := by
  rw [val_main_v18_apply, val_main_v17_apply, val_main_v16_apply, val_main_v15_apply, Ideal.hostUnary_exp_def,
    Ideal.subf_def, score_eq]
  rw [show idx_main_v15 (idx_main_v16 (ix3 b s t)) = ix2 b s from
    funext fun a => Fin.ext (by match a with | ⟨0, _⟩ => rfl | ⟨1, _⟩ => rfl), hM]

/-- The row's total weight: the sum, started from 0, of the 4096 weights. -/
theorem l_eq (b : Fin 4) (s : Fin 4096) (M : ℝ)
    (hM : val_main_v14 (F := Ideal) (fun i => ((r1 i : ℝ) : EReal)) (fun i => ((r2 i : ℝ) : EReal))
        (fun i => ((w i : ℝ) : EReal)) (fun i => ((c i : ℝ) : EReal)) (ix2 b s) = (M : EReal)) :
    val_main_v19 (F := Ideal) (fun i => ((r1 i : ℝ) : EReal)) (fun i => ((r2 i : ℝ) : EReal))
        (fun i => ((w i : ℝ) : EReal)) (fun i => ((c i : ℝ) : EReal)) (ix2 b s)
      = 0 + ∑ t : Fin 4096, Ideal.exp (((score r1 r2 w c b s t : ℝ) : EReal) - (M : EReal)) := by
  rw [val_main_v19_apply, val_main_cst_2_apply, Ideal.ofBits_def, Ideal.ofBits_zero_f32]
  refine congrArg (0 + ·) (Finset.sum_congr rfl fun t _ => ?_)
  rw [show idx_main_v19 (ix2 b s) t = ix3 b s t from
    funext fun a => Fin.ext (by match a with | ⟨0, _⟩ => rfl | ⟨1, _⟩ => rfl | ⟨2, _⟩ => rfl)]
  exact e_eq r1 r2 w c b s t M hM

/-- The reference at (b, s, f) is the specification there. -/
theorem ref_ix3 (b : Fin 4) (s : Fin 4096) (f : Fin 127) :
    val_main_v23 (F := Ideal) (fun i => ((r1 i : ℝ) : EReal)) (fun i => ((r2 i : ℝ) : EReal))
        (fun i => ((w i : ℝ) : EReal)) (fun i => ((c i : ℝ) : EReal)) (ix3 b s f)
      = G r1 r2 w c (ix3 b s f) := by
  obtain ⟨M, hM⟩ := rowmax_eq r1 r2 w c b s
  have key := Cert.OnlineSoftmax.softmax_div (fun t : Fin 4096 => score r1 r2 w c b s t) (fun t : Fin 4096 => r2 (ix3 b t f)) M
  rw [val_main_v23_apply, G_ix3]
  unfold attn
  refine Eq.trans ?_ key
  refine Finset.sum_congr rfl fun t _ => ?_
  rw [val_main_v22_apply, val_main_v21_apply, val_main_v20_apply, Ideal.hostDivf_def]
  rw [show lidx_main_v23 (ix3 b s f) t = ix3 b s t from
      funext fun a => Fin.ext (by match a with | ⟨0, _⟩ => rfl | ⟨1, _⟩ => rfl | ⟨2, _⟩ => rfl),
    show ridx_main_v23 (ix3 b s f) t = ix3 b t f from
      funext fun a => Fin.ext (by match a with | ⟨0, _⟩ => rfl | ⟨1, _⟩ => rfl | ⟨2, _⟩ => rfl),
    show idx_main_v20 (idx_main_v21 (ix3 b s t)) = ix2 b s from
      funext fun a => Fin.ext (by match a with | ⟨0, _⟩ => rfl | ⟨1, _⟩ => rfl),
    e_eq r1 r2 w c b s t M hM, l_eq r1 r2 w c b s M hM]

/-- The reference, on real inputs, is the specification. -/
theorem ref_eq :
    Cert.ReferenceIdeal.Read.val_main_v23 (F := Ideal) (fun i => ((r1 i : ℝ) : EReal)) (fun i => ((r2 i : ℝ) : EReal))
        (fun i => ((w i : ℝ) : EReal)) (fun i => ((c i : ℝ) : EReal))
      = Cert.AttnSpec.G r1 r2 w c := by
  funext i
  obtain ⟨b, s, f, rfl⟩ : ∃ b s f, i = ix3 b s f := ⟨i 0, i 1, i 2, eq_ix3 i⟩
  exact ref_ix3 r1 r2 w c b s f

end Cert.ReferenceIdeal.RefValue

end
-- ==== Proof.KLoop.lean ====
/-
  The key/value loop of one query tile, read back as a recursion of pure values.

  Inside one grid point the body runs eight trips; trip k loads rows 512k … 512k+511 of the cached keys and of the
  cached values, and replaces the running triple (accumulator, running maximum, running denominator), held in three
  scratch buffers, by a pure function of the triple it finds there. The three buffers are written whole by every trip,
  so what they hold after n trips is the n-fold iterate `loopSt` of that pure function from the initial fill
  (zeros, −∞, zeros): the last whole-buffer store wins, and a whole-buffer load reads it back.
-/
import proofs.«178170_j39676907882803_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.KV
open Cert.KernelIdeal Cert.KernelIdeal.Gen
variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Rows 512k … 512k+511 of the cached keys. -/
def keyTile (K : Vec F S4096x64 .bf16) (k : Fin k0_t1_loop.trips) : Vec F S512x64 .bf16 :=
  View.ld K (Rect.unit (s := S4096x64) (k0_off1 k) S512x64.size (k0_off1_inb k))

/-- Rows 512k … 512k+511 of the cached values. -/
def valTile (X : Vec F S4096x128 .bf16) (k : Fin k0_t1_loop.trips) : Vec F S512x128 .bf16 :=
  View.ld X (Rect.unit (s := S4096x128) (k0_off2 k) S512x128.size (k0_off2_inb k))

/-- The running triple (accumulator, maximum, denominator) after n trips, for the projected query tile `q`, the
    cached keys `K` and the cached values `X`. -/
def loopSt (q : FVec F S1024x64 .bf16) (K : Vec F S4096x64 .bf16) (X : Vec F S4096x128 .bf16) :
    ℕ → Vec F S1024x128 .f32 × Vec F S1024x1 .f32 × Vec F S1024x1 .f32
  | 0 => (k0_pay13, k0_pay14, k0_pay15)
  | k + 1 =>
    if h : k < k0_t1_loop.trips then
      (k0_pay7 q (keyTile K ⟨k, h⟩) (valTile X ⟨k, h⟩) (loopSt q K X k).2.1 (loopSt q K X k).1,
       k0_pay16 (k0_pay3 q (keyTile K ⟨k, h⟩) (loopSt q K X k).2.1),
       k0_pay6 q (keyTile K ⟨k, h⟩) (loopSt q K X k).2.1 (loopSt q K X k).2.2)
    else loopSt q K X k

theorem loopSt_succ (q : FVec F S1024x64 .bf16) (K : Vec F S4096x64 .bf16) (X : Vec F S4096x128 .bf16)
    (k : Fin k0_t1_loop.trips) :
    loopSt q K X (k.val + 1)
      = (k0_pay7 q (keyTile K k) (valTile X k) (loopSt q K X k.val).2.1 (loopSt q K X k.val).1,
         k0_pay16 (k0_pay3 q (keyTile K k) (loopSt q K X k.val).2.1),
         k0_pay6 q (keyTile K k) (loopSt q K X k.val).2.1 (loopSt q K X k.val).2.2) := by
  rw [loopSt]; exact dif_pos k.isLt

/-- A whole-buffer load, after a whole-buffer first store and any later stores, reads what the stores leave. -/
theorem readAt_whole_writes {S : Shape} {e : EltTy} (v : View sig .tc .vmem S e) {off : Fin S.rank → Nat}
    (h : off = fun _ => 0) (inb : ∀ a, off a + S.size a ≤ S.size a) (w0 : S.Idx → Elt F e)
    (P : List (View.Piece (Elt F) S e)) :
    v.readAt (Elt F) (Rect.unit off S.size inb).toLoadRect
        (v.writes (Elt F) (v.writes (Elt F) v.junk [⟨Rect.unit off S.size inb, w0⟩]) P)
      = View.canon (P ++ [⟨Rect.unit off S.size inb, w0⟩]) := by
  rw [← View.writes_append, View.readAt_writes_junk_eq_canon]
  exact View.ld_unit_zero h inb _

variable (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S64x128 .f32) (harg4 : arg4.IsWhole) (arg5 : Memref sig .tc .vmem S64 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S4096x64 .bf16) (harg10 : arg10.IsWhole) (arg11 : Memref sig .tc .vmem S4096x128 .bf16) (harg11 : arg11.IsWhole)

/-- One trip's stores: each of the three scratch buffers gets one whole-buffer store, of the trip's payload over what
    the trip loads. -/
theorem tripL_eq (v0 : Vec F S64x128 .f32) (v3 : Vec F S64 .f32) (v7 : Vec F S1x1024x128 .f32)
    (X10 : BufTy.Contents (Elt F) arg10.view.ty) (X11 : BufTy.Contents (Elt F) arg11.view.ty) (k : Fin k0_t1_loop.trips)
    (f7 : BufTy.Contents (Elt F) arg7.view.ty) (f8 : BufTy.Contents (Elt F) arg8.view.ty) (f9 : BufTy.Contents (Elt F) arg9.view.ty) :
    tripL_k0_t1 (F := F) Variants.none c none i arg2 harg2 arg3 harg3 arg4 harg4 arg5 harg5 arg6 harg6 arg7 harg7 arg8 harg8 arg9 harg9 arg10 harg10 arg11 harg11 v0 v3 v7 X10 X11 k f7 f8 f9
      = ([⟨Rect.unit ![0, 0] S1024x128.size inb_S1024x128_S1024x128_0_0,
            k0_pay7 (k0_pay12 v0 v3 v7) (keyTile (arg10.view.read (Elt F) X10) k) (valTile (arg11.view.read (Elt F) X11) k)
              (View.readAt (Elt F) arg8.view (Rect.unit ![0, 0] S1024x1.size inb_S1024x1_S1024x1_0_0).toLoadRect f8)
              (View.readAt (Elt F) arg7.view (Rect.unit ![0, 0] S1024x128.size inb_S1024x128_S1024x128_0_0).toLoadRect f7)⟩],
         [⟨Rect.unit ![0, 0] S1024x1.size inb_S1024x1_S1024x1_0_0,
            k0_pay16 (k0_pay3 (k0_pay12 v0 v3 v7) (keyTile (arg10.view.read (Elt F) X10) k)
              (View.readAt (Elt F) arg8.view (Rect.unit ![0, 0] S1024x1.size inb_S1024x1_S1024x1_0_0).toLoadRect f8))⟩],
         [⟨Rect.unit ![0, 0] S1024x1.size inb_S1024x1_S1024x1_0_0,
            k0_pay6 (k0_pay12 v0 v3 v7) (keyTile (arg10.view.read (Elt F) X10) k)
              (View.readAt (Elt F) arg8.view (Rect.unit ![0, 0] S1024x1.size inb_S1024x1_S1024x1_0_0).toLoadRect f8)
              (View.readAt (Elt F) arg9.view (Rect.unit ![0, 0] S1024x1.size inb_S1024x1_S1024x1_0_0).toLoadRect f9)⟩]) := by
  unfold tripL_k0_t1
  unfold trip_k0_t1
  dsimp only
  sl_unfold_words
  rfl

/-- The statement: after n trips each scratch buffer's stores (over its initial fill) leave the n-th iterate. -/
def PbInv (v0 : Vec F S64x128 .f32) (v3 : Vec F S64 .f32) (v7 : Vec F S1x1024x128 .f32)
    (X10 : BufTy.Contents (Elt F) arg10.view.ty) (X11 : BufTy.Contents (Elt F) arg11.view.ty) (n : ℕ) : Prop :=
  View.canon ((pb_k0_t1 (F := F) Variants.none c none i arg2 harg2 arg3 harg3 arg4 harg4 arg5 harg5 arg6 harg6 arg7 harg7 arg8 harg8 arg9 harg9 arg10 harg10 arg11 harg11 v0 v3 v7 X10 X11 (arg7.view.writes (Elt F) arg7.view.junk [(⟨Rect.unit ![0, 0] S1024x128.size inb_S1024x128_S1024x128_0_0, k0_pay13⟩ : View.Piece (Elt F) S1024x128 .f32)]) (arg8.view.writes (Elt F) arg8.view.junk [(⟨Rect.unit ![0, 0] S1024x1.size inb_S1024x1_S1024x1_0_0, k0_pay14⟩ : View.Piece (Elt F) S1024x1 .f32)]) (arg9.view.writes (Elt F) arg9.view.junk [(⟨Rect.unit ![0, 0] S1024x1.size inb_S1024x1_S1024x1_0_0, k0_pay15⟩ : View.Piece (Elt F) S1024x1 .f32)]) n).1 ++ [(⟨Rect.unit ![0, 0] S1024x128.size inb_S1024x128_S1024x128_0_0, k0_pay13⟩ : View.Piece (Elt F) S1024x128 .f32)])
      = (loopSt (k0_pay12 v0 v3 v7) (arg10.view.read (Elt F) X10) (arg11.view.read (Elt F) X11) n).1
  ∧ View.canon ((pb_k0_t1 (F := F) Variants.none c none i arg2 harg2 arg3 harg3 arg4 harg4 arg5 harg5 arg6 harg6 arg7 harg7 arg8 harg8 arg9 harg9 arg10 harg10 arg11 harg11 v0 v3 v7 X10 X11 (arg7.view.writes (Elt F) arg7.view.junk [(⟨Rect.unit ![0, 0] S1024x128.size inb_S1024x128_S1024x128_0_0, k0_pay13⟩ : View.Piece (Elt F) S1024x128 .f32)]) (arg8.view.writes (Elt F) arg8.view.junk [(⟨Rect.unit ![0, 0] S1024x1.size inb_S1024x1_S1024x1_0_0, k0_pay14⟩ : View.Piece (Elt F) S1024x1 .f32)]) (arg9.view.writes (Elt F) arg9.view.junk [(⟨Rect.unit ![0, 0] S1024x1.size inb_S1024x1_S1024x1_0_0, k0_pay15⟩ : View.Piece (Elt F) S1024x1 .f32)]) n).2.1 ++ [(⟨Rect.unit ![0, 0] S1024x1.size inb_S1024x1_S1024x1_0_0, k0_pay14⟩ : View.Piece (Elt F) S1024x1 .f32)])
      = (loopSt (k0_pay12 v0 v3 v7) (arg10.view.read (Elt F) X10) (arg11.view.read (Elt F) X11) n).2.1
  ∧ View.canon ((pb_k0_t1 (F := F) Variants.none c none i arg2 harg2 arg3 harg3 arg4 harg4 arg5 harg5 arg6 harg6 arg7 harg7 arg8 harg8 arg9 harg9 arg10 harg10 arg11 harg11 v0 v3 v7 X10 X11 (arg7.view.writes (Elt F) arg7.view.junk [(⟨Rect.unit ![0, 0] S1024x128.size inb_S1024x128_S1024x128_0_0, k0_pay13⟩ : View.Piece (Elt F) S1024x128 .f32)]) (arg8.view.writes (Elt F) arg8.view.junk [(⟨Rect.unit ![0, 0] S1024x1.size inb_S1024x1_S1024x1_0_0, k0_pay14⟩ : View.Piece (Elt F) S1024x1 .f32)]) (arg9.view.writes (Elt F) arg9.view.junk [(⟨Rect.unit ![0, 0] S1024x1.size inb_S1024x1_S1024x1_0_0, k0_pay15⟩ : View.Piece (Elt F) S1024x1 .f32)]) n).2.2 ++ [(⟨Rect.unit ![0, 0] S1024x1.size inb_S1024x1_S1024x1_0_0, k0_pay15⟩ : View.Piece (Elt F) S1024x1 .f32)])
      = (loopSt (k0_pay12 v0 v3 v7) (arg10.view.read (Elt F) X10) (arg11.view.read (Elt F) X11) n).2.2

/-- One more trip keeps it: the trip's three whole-buffer stores come last, and what it loaded from the three buffers
    is the previous iterate. -/
theorem pbInv_step (v0 : Vec F S64x128 .f32) (v3 : Vec F S64 .f32) (v7 : Vec F S1x1024x128 .f32)
    (X10 : BufTy.Contents (Elt F) arg10.view.ty) (X11 : BufTy.Contents (Elt F) arg11.view.ty) (k : Fin k0_t1_loop.trips)
    (ih : PbInv c i arg2 harg2 arg3 harg3 arg4 harg4 arg5 harg5 arg6 harg6 arg7 harg7 arg8 harg8 arg9 harg9 arg10 harg10 arg11 harg11 v0 v3 v7 X10 X11 k.val) :
    PbInv c i arg2 harg2 arg3 harg3 arg4 harg4 arg5 harg5 arg6 harg6 arg7 harg7 arg8 harg8 arg9 harg9 arg10 harg10 arg11 harg11 v0 v3 v7 X10 X11 (k.val + 1) := by
  obtain ⟨ih7, ih8, ih9⟩ := ih
  unfold PbInv
  rw [pb_k0_t1_succ, loopSt_succ, tripL_eq]
  dsimp only
  rw [readAt_whole_writes arg7.view hz2, readAt_whole_writes arg8.view hz2, readAt_whole_writes arg9.view hz2, ih7, ih8, ih9]
  refine ⟨?_, ?_, ?_⟩
  · exact View.canon_cons_unit_zero hz2 _ _ _
  · exact View.canon_cons_unit_zero hz2 _ _ _
  · exact View.canon_cons_unit_zero hz2 _ _ _

theorem pbInv (v0 : Vec F S64x128 .f32) (v3 : Vec F S64 .f32) (v7 : Vec F S1x1024x128 .f32)
    (X10 : BufTy.Contents (Elt F) arg10.view.ty) (X11 : BufTy.Contents (Elt F) arg11.view.ty) :
    ∀ n : ℕ, n ≤ k0_t1_loop.trips → PbInv c i arg2 harg2 arg3 harg3 arg4 harg4 arg5 harg5 arg6 harg6 arg7 harg7 arg8 harg8 arg9 harg9 arg10 harg10 arg11 harg11 v0 v3 v7 X10 X11 n
  | 0, _ => by
    unfold PbInv
    rw [pb_k0_t1.eq_1]
    exact ⟨View.canon_unit_zero hz2 _ _, View.canon_unit_zero hz2 _ _, View.canon_unit_zero hz2 _ _⟩
  | k + 1, hk =>
    pbInv_step c i arg2 harg2 arg3 harg3 arg4 harg4 arg5 harg5 arg6 harg6 arg7 harg7 arg8 harg8 arg9 harg9 arg10 harg10 arg11 harg11 v0 v3 v7 X10 X11 ⟨k, hk⟩ (pbInv v0 v3 v7 X10 X11 k (Nat.le_of_lt hk))

end Cert.KernelIdeal.KV
end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.KPiece.lean ====
/-
  What one grid point leaves, case by case, as pure values of its input blocks.

  At the first query tile of a batch the body first fills the two caches — the values cast down, and the keys
  projected from them — and every point then projects its query tile, runs the key/value loop against the caches and
  stores accumulator / denominator. Each buffer is filled by whole-buffer stores, so what a case leaves in a buffer is
  the payload of its last store, over the loads' values: the input blocks, the caches, and the loop's final triple.
-/
import proofs.«178170_j39676907882803_2_alg».proof.Proof.KLoop

set_option maxRecDepth 16384

noncomputable section
open Idealize.ShloMosaic Idealize.ShloMosaic.TcCoe Idealize.SL.Sem
open Idealize.ShloMosaic.Pipeline (Dat)

namespace Cert.KernelIdeal.KV
open Cert.KernelIdeal Cert.KernelIdeal.Gen
variable {F : FTy → Type} [FloatOps F]

/-- A whole-buffer load of what stores over an unwritten buffer leave reads the stores' canonical contents. -/
theorem readAt_whole_junk_writes {S : Shape} {e : EltTy} (v : View sig .tc .vmem S e) {off : Fin S.rank → Nat}
    (h : off = fun _ => 0) (inb : ∀ a, off a + S.size a ≤ S.size a) (L : List (View.Piece (Elt F) S e)) :
    v.readAt (Elt F) (Rect.unit off S.size inb).toLoadRect (v.writes (Elt F) v.junk L) = View.canon L := by
  rw [View.readAt_writes_junk_eq_canon]
  exact View.ld_unit_zero h inb _

/-- The query tile's result: accumulator over denominator after all trips. -/
def tileOut (q : FVec F S1024x64 .bf16) (K : Vec F S4096x64 .bf16) (X : Vec F S4096x128 .bf16) : FVec F S1x1024x128 .f32 :=
  k0_pay1 (loopSt q K X k0_t1_loop.trips).1 (loopSt q K X k0_t1_loop.trips).2.2

variable (c : Dev nD) (i : grid0.Coords) (arg2 : Memref sig .tc .vmem S1x1024x128 .f32) (harg2 : arg2.IsWhole) (arg3 : Memref sig .tc .vmem S1x4096x128 .f32) (harg3 : arg3.IsWhole) (arg4 : Memref sig .tc .vmem S64x128 .f32) (harg4 : arg4.IsWhole) (arg5 : Memref sig .tc .vmem S64 .f32) (harg5 : arg5.IsWhole) (arg6 : Memref sig .tc .vmem S1x1024x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S4096x64 .bf16) (harg10 : arg10.IsWhole) (arg11 : Memref sig .tc .vmem S4096x128 .bf16) (harg11 : arg11.IsWhole)

/-- First tile of a batch: the key cache ends holding the projected keys. -/
theorem sout_A_3 (hc0 : cond0_0 i) (x0 : Vec F S1x1024x128 .f32) (x1 : Vec F S1x4096x128 .f32) (x2 : Vec F S64x128 .f32) (x3 : Vec F S64 .f32) :
    sout0_A_3 c i arg2 harg2 arg3 harg3 arg4 harg4 arg5 harg5 arg6 harg6 arg7 harg7 arg8 harg8 arg9 harg9 arg10 harg10 arg11 harg11 hc0 x0 x1 x2 x3 = k0_pay11 x2 x3 x1 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz2]
  simp only [View.readAt_eq_ld, harg3.read_unread, harg4.read_unread, harg5.read_unread,
    View.ld_unit_zero (S := S64x128) hz2, View.ld_unit_zero (S := S64) hz1, View.ld_unit_zero (S := S1x4096x128) hz3]

/-- First tile of a batch: the value cache ends holding the batch's value rows. -/
theorem sout_A_4 (hc0 : cond0_0 i) (x0 : Vec F S1x1024x128 .f32) (x1 : Vec F S1x4096x128 .f32) (x2 : Vec F S64x128 .f32) (x3 : Vec F S64 .f32) :
    sout0_A_4 c i arg2 harg2 arg3 harg3 arg4 harg4 arg5 harg5 arg6 harg6 arg7 harg7 arg8 harg8 arg9 harg9 arg10 harg10 arg11 harg11 hc0 x0 x1 x2 x3 = k0_pay10 x1 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz2]
  simp only [View.readAt_eq_ld, harg3.read_unread, View.ld_unit_zero (S := S1x4096x128) hz3]

/-- First tile of a batch: the output block is the tile's result against the caches just filled. -/
theorem out_A_4 (hc0 : cond0_0 i) (x0 : Vec F S1x1024x128 .f32) (x1 : Vec F S1x4096x128 .f32) (x2 : Vec F S64x128 .f32) (x3 : Vec F S64 .f32) :
    out0_A_4 c i arg2 harg2 arg3 harg3 arg4 harg4 arg5 harg5 arg6 harg6 arg7 harg7 arg8 harg8 arg9 harg9 arg10 harg10 arg11 harg11 hc0 x0 x1 x2 x3 = tileOut (k0_pay12 x2 x3 x0) (k0_pay11 x2 x3 x1) (k0_pay10 x1) := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 hc0 x0 x1 x2 x3)]
  unfold kernelRun0_A
  dsimp only
  sl_unfold_words
  rw [View.canon_unit_zero hz3, readAt_whole_junk_writes arg7.view hz2, readAt_whole_junk_writes arg9.view hz2]
  rw [(pbInv c i arg2 harg2 arg3 harg3 arg4 harg4 arg5 harg5 arg6 harg6 arg7 harg7 arg8 harg8 arg9 harg9 arg10 harg10 arg11 harg11 _ _ _ _ _ _ (le_refl _)).1, (pbInv c i arg2 harg2 arg3 harg3 arg4 harg4 arg5 harg5 arg6 harg6 arg7 harg7 arg8 harg8 arg9 harg9 arg10 harg10 arg11 harg11 _ _ _ _ _ _ (le_refl _)).2.2]
  rw [View.read_writes_junk_eq_canon, View.read_writes_junk_eq_canon, View.canon_unit_zero hz2, View.canon_unit_zero hz2]
  simp only [View.readAt_eq_ld, harg2.read_unread, harg3.read_unread, harg4.read_unread, harg5.read_unread,
    View.ld_unit_zero (S := S64x128) hz2, View.ld_unit_zero (S := S64) hz1, View.ld_unit_zero (S := S1x4096x128) hz3,
    View.ld_unit_zero (S := S1x1024x128) hz3]
  rfl

/-- A later tile of the batch: the output block is the tile's result against the caches the first tile left. -/
theorem out_B_4 (hc0 : ¬cond0_0 i) (x0 : Vec F S1x1024x128 .f32) (x1 : Vec F S1x4096x128 .f32) (x2 : Vec F S64x128 .f32) (x3 : Vec F S64 .f32)
    (xs3 : Vec F S4096x64 .bf16) (xs4 : Vec F S4096x128 .bf16) :
    out0_B_4 c i arg2 harg2 arg3 harg3 arg4 harg4 arg5 harg5 arg6 harg6 arg7 harg7 arg8 harg8 arg9 harg9 arg10 harg10 arg11 harg11 hc0 x0 x1 x2 x3 xs3 xs4 = tileOut (k0_pay12 x2 x3 x0) xs3 xs4 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 hc0 x0 x1 x2 x3 xs3 xs4)]
  unfold kernelRun0_B
  dsimp only
  sl_unfold_words
  rw [View.canon_unit_zero hz3, readAt_whole_junk_writes arg7.view hz2, readAt_whole_junk_writes arg9.view hz2]
  rw [(pbInv c i arg2 harg2 arg3 harg3 arg4 harg4 arg5 harg5 arg6 harg6 arg7 harg7 arg8 harg8 arg9 harg9 arg10 harg10 arg11 harg11 _ _ _ _ _ _ (le_refl _)).1, (pbInv c i arg2 harg2 arg3 harg3 arg4 harg4 arg5 harg5 arg6 harg6 arg7 harg7 arg8 harg8 arg9 harg9 arg10 harg10 arg11 harg11 _ _ _ _ _ _ (le_refl _)).2.2]
  simp only [View.readAt_eq_ld, harg2.read_unread, harg4.read_unread, harg5.read_unread, harg10.read_unread, harg11.read_unread,
    View.ld_unit_zero (S := S64x128) hz2, View.ld_unit_zero (S := S64) hz1, View.ld_unit_zero (S := S1x1024x128) hz3]
  rfl

end Cert.KernelIdeal.KV
end
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.KRow.lean ====
/-
  The loop's payloads read at an index, on the extended reals, and the loop as the running softmax of each row.

  Row r of a query tile has its own running triple. Reading the trip's payloads at coordinates: the tile's scores of
  row r are s_t = (Σ_d q[r,d]·k[t,d])·8 over the 512 key rows of the tile; the new maximum is
  max m (max_t s_t); the weights are e^{s_t − m'}; the denominator and the accumulator are rescaled by e^{m − m'} and
  gain Σ_t e^{s_t − m'} and Σ_t e^{s_t − m'}·x[t,f]. That is one step of the running softmax of the row, so after all
  trips the triple of row r is the running softmax's state over the whole key axis.
-/
import proofs.«178170_j39676907882803_2_alg».proof.Proof.KLoop
import proofs.«178170_j39676907882803_2_alg».proof.Proof.LibPlainMatmul
import proofs.«178170_j39676907882803_2_alg».proof.Proof.KPiece
import proofs.«178170_j39676907882803_2_alg».proof.Proof.LibBlockSum
import proofs.«178170_j39676907882803_2_alg».proof.Proof.OnlineSoftmax
import Idealize.ShloMosaic.Lib.ValueLayout
import Idealize.ShloMosaic.PureOps.Ideal.Laws

set_option maxRecDepth 16384

noncomputable section
open Idealize.ShloMosaic Idealize.ShloMosaic.TcCoe Idealize.SL.Sem Idealize.ShloMosaic.ValueIdx

namespace Cert.KernelIdeal.KRow
open Cert.KernelIdeal Cert.KernelIdeal.Gen Cert.KernelIdeal.KV

/-! ## Layout operations of the body, read at coordinates -/

/-- A column [a,1] broadcast along rows to [a,b] reads, at (p, c), the column at p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a,1] reads, at (p, z), the vector at p. -/
theorem cast_col_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_one, Shape.rowMajor_val_two]
    show p.val = p.val * 1 + z.val
    omega)

/-- The word of −∞ denotes ⊥. -/
theorem ofBits_neg_inf : Ideal.ofBits .f32 0xFF800000#32 = (⊥ : EReal) := by
  simp [Ideal.ofBits, Ideal.ieee]

/-- The word of 8.0 denotes 8. -/
theorem ofBits_eight : Ideal.ofBits .f32 0x41000000#32 = ((8 : ℝ) : EReal) := by
  simp [Ideal.ofBits, Ideal.ieee, -EReal.coe_mul]; norm_num

/-- A row maximum: the fold of max from the initial word's value over the row. -/
theorem rowMax_apply (src : FVec Ideal S1024x512 .f32) (acc : BitVec 32) (h : S1024x512.Reduces [1] S1024)
    (hφ : FKind.Formats .f32) (hacc : acc = FKind.maximumf.neutral .f32 hφ) (r : Fin 1024) :
    multiReduction .maximumf [1] S1024 src acc h hφ hacc (ix1 r)
      = Finset.univ.fold max (Ideal.ofBits .f32 acc) (fun t : Fin 512 => src (ix2 r t)) := by
  refine (Ideal.multiReduction_maximumf_single src acc h hφ hacc (ix1 r)).trans ?_
  refine congrArg (fun g => Finset.univ.fold max _ g) (funext fun t => congrArg src (funext fun a => Fin.ext ?_))
  match a with
  | ⟨0, _⟩ => rfl
  | ⟨1, _⟩ => rfl

/-- A row sum. -/
theorem rowSum_apply (src : FVec Ideal S1024x512 .f32) (acc : BitVec 32) (h : S1024x512.Reduces [1] S1024)
    (hφ : FKind.Formats .f32) (hacc : acc = FKind.add.neutral .f32 hφ) (r : Fin 1024) :
    multiReduction .add [1] S1024 src acc h hφ hacc (ix1 r) = ∑ t : Fin 512, src (ix2 r t) := by
  refine (Ideal.multiReduction_add_single src acc h hφ hacc (ix1 r)).trans ?_
  refine Finset.sum_congr rfl fun t _ => congrArg src (funext fun a => Fin.ext ?_)
  match a with
  | ⟨0, _⟩ => rfl
  | ⟨1, _⟩ => rfl

/-! ## The payloads at an index -/

/-- Each of the kernel's four contractions is the plain matrix product. -/
theorem dot_qk : dot_S1024x64_S64x512_S1024x512_1_0_0_1_n_n = DotDims.plain 1024 64 512 := rfl
theorem dot_pv : dot_S1024x512_S512x128_S1024x128_1_0_0_1_n_n = DotDims.plain 1024 512 128 := rfl
theorem dot_q : dot_S1024x128_S128x64_S1024x64_1_0_0_1_n_n = DotDims.plain 1024 128 64 := rfl
theorem dot_k : dot_S4096x128_S128x64_S4096x64_1_0_0_1_n_n = DotDims.plain 4096 128 64 := rfl

/-- The scale √64 as the kernel spells it. -/
abbrev scale8 : EReal := Scalar.ofBits (F := Ideal) .f32 0x41000000#32

theorem scale8_eq : scale8 = ((8 : ℝ) : EReal) := ofBits_eight

section Payloads
variable (q : FVec Ideal S1024x64 .bf16) (kt : Vec Ideal S512x64 .bf16) (xt : Vec Ideal S512x128 .bf16)
  (mv lv : Vec Ideal S1024x1 .f32) (av : Vec Ideal S1024x128 .f32) (r : Fin 1024) (t : Fin 512) (f : Fin 128) (z : Fin 1)

/-- The scores of one tile: row r of the query tile against key row t, scaled. -/
theorem pay2_apply :
    k0_pay2 (F := Ideal) q kt (ix2 r t) = (∑ d : Fin 64, q (ix2 r d) * kt (ix2 t d)) * scale8 := by
  unfold k0_pay2
  dsimp only
  rw [mulf_apply, broadcast_apply]
  simp only [matmul]
  rw [dot_qk, Cert.PlainMatmul.plain_apply]
  refine congrArg (· * scale8) (Finset.sum_congr rfl fun d _ => ?_)
  rw [transpose_ix2_apply]

/-- The new running maximum of row r. -/
theorem pay3_apply :
    k0_pay3 (F := Ideal) q kt mv (ix2 r z)
      = max (mv (ix2 r z)) (Finset.univ.fold max (⊥ : EReal) (fun t : Fin 512 => k0_pay2 (F := Ideal) q kt (ix2 r t))) := by
  unfold k0_pay3
  dsimp only
  rw [maximumf_apply]
  refine congrArg (max _) ?_
  refine (cast_col_apply _ _ r z).trans ?_
  refine (rowMax_apply _ _ _ _ _ r).trans ?_
  rw [ofBits_neg_inf]

/-- The weights of the tile's key rows, relative to the new maximum. -/
theorem pay4_apply :
    k0_pay4 (F := Ideal) q kt mv (ix2 r t)
      = Ideal.exp (k0_pay2 (F := Ideal) q kt (ix2 r t) - k0_pay3 (F := Ideal) q kt mv (ix2 r (0 : Fin 1))) := by
  unfold k0_pay4
  refine (show _ = Ideal.exp (subf (F := Ideal) (φ := .f32) (k0_pay2 (F := Ideal) q kt)
    (broadcastTo S1024x512 (k0_pay3 (F := Ideal) q kt mv) broadcasts_S1024x1_S1024x512) (ix2 r t)) from rfl).trans ?_
  rw [subf_apply, bcast_col_apply]

/-- The factor that moves the old sums to the new maximum. -/
theorem pay5_apply :
    k0_pay5 (F := Ideal) q kt mv (ix2 r z)
      = Ideal.exp (mv (ix2 r z) - k0_pay3 (F := Ideal) q kt mv (ix2 r z)) := by
  unfold k0_pay5
  refine (show _ = Ideal.exp (subf (F := Ideal) (φ := .f32) mv (k0_pay3 (F := Ideal) q kt mv) (ix2 r z)) from rfl).trans ?_
  rw [subf_apply]

/-- The new denominator of row r. -/
theorem pay6_apply :
    k0_pay6 (F := Ideal) q kt mv lv (ix2 r z)
      = k0_pay5 (F := Ideal) q kt mv (ix2 r z) * lv (ix2 r z) + ∑ t : Fin 512, k0_pay4 (F := Ideal) q kt mv (ix2 r t) := by
  unfold k0_pay6
  dsimp only
  rw [shapeCast_self, addf_apply, mulf_apply]
  congr 1
  exact (cast_col_apply _ _ r z).trans (rowSum_apply _ _ _ _ _ r)

/-- The new accumulator of row r at feature f. -/
theorem pay7_apply :
    k0_pay7 (F := Ideal) q kt xt mv av (ix2 r f)
      = k0_pay5 (F := Ideal) q kt mv (ix2 r (0 : Fin 1)) * av (ix2 r f)
        + ∑ t : Fin 512, k0_pay4 (F := Ideal) q kt mv (ix2 r t) * xt (ix2 t f) := by
  unfold k0_pay7
  rw [shapeCast_self, addf_apply, mulf_apply, bcast_col_apply]
  congr 1
  simp only [matmul]
  rw [dot_pv, Cert.PlainMatmul.plain_apply]
  rfl

end Payloads

theorem pay16_eq (v : FVec Ideal S1024x1 .f32) : k0_pay16 (F := Ideal) v = v := by
  unfold k0_pay16; exact shapeCast_self _ _

theorem pay13_apply (i : S1024x128.Idx) : k0_pay13 (F := Ideal) i = 0 := by
  unfold k0_pay13; rw [shapeCast_self, broadcast_apply]; exact Ideal.ofBits_zero_f32

theorem pay14_apply (i : S1024x1.Idx) : k0_pay14 (F := Ideal) i = ⊥ := by
  unfold k0_pay14; rw [shapeCast_self, broadcast_apply]; exact ofBits_neg_inf

theorem pay15_apply (i : S1024x1.Idx) : k0_pay15 (F := Ideal) i = 0 := by
  unfold k0_pay15; rw [shapeCast_self, broadcast_apply]; exact Ideal.ofBits_zero_f32

/-- The stored block: accumulator over denominator, row by row. -/
theorem pay1_apply (av : Vec Ideal S1024x128 .f32) (lv : Vec Ideal S1024x1 .f32) (u : Fin 1) (r : Fin 1024) (f : Fin 128) :
    k0_pay1 (F := Ideal) av lv (ix3 u r f) = Ideal.div (av (ix2 r f)) (lv (ix2 r (0 : Fin 1))) := by
  unfold k0_pay1
  rw [shapeCast_ab_1ab_apply, divf_apply, bcast_col_apply]

/-! ## The tiles of the caches -/

/-- Trip k reads the caches from row 512k. -/
theorem off1_eq : ∀ k : Fin k0_t1_loop.trips, k0_off1 k = ![512 * k.val, 0] := by decide +kernel
theorem off2_eq : ∀ k : Fin k0_t1_loop.trips, k0_off2 k = ![512 * k.val, 0] := by decide +kernel
theorem trips_eq : k0_t1_loop.trips = 8 := by decide +kernel

theorem keyTile_apply (K : Vec Ideal S4096x64 .bf16) (k : Fin k0_t1_loop.trips) (t : Fin 512) (d : Fin 64)
    (hb : 512 * k.val + t.val < 4096) :
    keyTile K k (ix2 t d) = K (ix2 ⟨512 * k.val + t.val, hb⟩ d) := by
  unfold keyTile
  show K _ = K _
  refine congrArg K (funext fun a => Fin.ext ?_)
  match a with
  | ⟨0, _⟩ => show k0_off1 k 0 + 1 * t.val = 512 * k.val + t.val; rw [off1_eq k]; show 512 * k.val + 1 * t.val = _; omega
  | ⟨1, _⟩ => show k0_off1 k 1 + 1 * d.val = d.val; rw [off1_eq k]; show 0 + 1 * d.val = _; omega

theorem valTile_apply (X : Vec Ideal S4096x128 .bf16) (k : Fin k0_t1_loop.trips) (t : Fin 512) (f : Fin 128)
    (hb : 512 * k.val + t.val < 4096) :
    valTile X k (ix2 t f) = X (ix2 ⟨512 * k.val + t.val, hb⟩ f) := by
  unfold valTile
  show X _ = X _
  refine congrArg X (funext fun a => Fin.ext ?_)
  match a with
  | ⟨0, _⟩ => show k0_off2 k 0 + 1 * t.val = 512 * k.val + t.val; rw [off2_eq k]; show 512 * k.val + 1 * t.val = _; omega
  | ⟨1, _⟩ => show k0_off2 k 1 + 1 * f.val = f.val; rw [off2_eq k]; show 0 + 1 * f.val = _; omega

/-! ## One trip is one step of the row's running softmax -/

section Row
open Cert.OnlineSoftmax

variable (q : FVec Ideal S1024x64 .bf16) (K : Vec Ideal S4096x64 .bf16) (X : Vec Ideal S4096x128 .bf16)
  (qr : Fin 1024 → Fin 64 → ℝ) (kr : ℕ → Fin 64 → ℝ) (xr : ℕ → Fin 128 → ℝ)

/-- The scaled score of query row r against key row n (a natural-number row index). -/
def sc (r : Fin 1024) (n : ℕ) : ℝ := (∑ d : Fin 64, qr r d * kr n d) * 8

/-- The scores of tile j of row r, as the running softmax takes them. -/
def scTile (r : Fin 1024) (j : ℕ) (t : Fin 512) : ℝ := sc qr kr r (512 * j + t.val)

/-- The values of tile j at feature f. -/
def xTile (f : Fin 128) (j : ℕ) (t : Fin 512) : ℝ := xr (512 * j + t.val) f

theorem tile_lt (k : Fin k0_t1_loop.trips) (t : Fin 512) : 512 * k.val + t.val < 4096 := by
  have h1 : k.val < 8 := lt_of_lt_of_eq k.isLt trips_eq
  have h2 := t.isLt
  omega

variable (hq : ∀ r d, q (ix2 r d) = ((qr r d : ℝ) : EReal))
  (hK : ∀ (t : Fin 4096) d, K (ix2 t d) = ((kr t.val d : ℝ) : EReal))
  (hX : ∀ (t : Fin 4096) f, X (ix2 t f) = ((xr t.val f : ℝ) : EReal))

include hq hK in
/-- The tile's scores are real numbers: the specification's scores of the tile's key rows. -/
theorem score_tile (r : Fin 1024) (k : Fin k0_t1_loop.trips) (t : Fin 512) :
    k0_pay2 (F := Ideal) q (keyTile K k) (ix2 r t) = ((scTile qr kr r k.val t : ℝ) : EReal) := by
  rw [pay2_apply, scale8_eq]
  unfold scTile sc
  rw [EReal.coe_mul, coe_finsum]
  refine congrArg (· * ((8 : ℝ) : EReal)) (Finset.sum_congr rfl fun d _ => ?_)
  rw [keyTile_apply K k t d (tile_lt k t), hq, hK, EReal.coe_mul]

include hX in
theorem value_tile (f : Fin 128) (k : Fin k0_t1_loop.trips) (t : Fin 512) :
    valTile X k (ix2 t f) = ((xTile xr f k.val t : ℝ) : EReal) := by
  rw [valTile_apply X k t f (tile_lt k t), hX]; rfl

/-- Row r's running triple (maximum, denominator, accumulator at feature f) of a state of the loop. -/
def rowSt (st : Vec Ideal S1024x128 .f32 × Vec Ideal S1024x1 .f32 × Vec Ideal S1024x1 .f32) (r : Fin 1024) (f : Fin 128) :
    EReal × EReal × EReal :=
  (st.2.1 (ix2 r (0 : Fin 1)), st.2.2 (ix2 r (0 : Fin 1)), st.1 (ix2 r f))

include hq hK hX in
/-- After n trips, row r's triple is the running softmax's state after n tiles. -/
theorem loopSt_row (r : Fin 1024) (f : Fin 128) :
    ∀ n : ℕ, n ≤ k0_t1_loop.trips →
      rowSt (loopSt q K X n) r f = run (scTile qr kr r) (xTile xr f) n
  | 0, _ => by
    show (k0_pay14 (F := Ideal) (ix2 r (0 : Fin 1)), k0_pay15 (F := Ideal) (ix2 r (0 : Fin 1)), k0_pay13 (F := Ideal) (ix2 r f))
      = ((⊥ : EReal), (0 : EReal), (0 : EReal))
    rw [pay13_apply, pay14_apply, pay15_apply]
  | k + 1, hk => by
    have ih := loopSt_row r f k (Nat.le_of_lt hk)
    have hs := loopSt_succ q K X ⟨k, hk⟩
    have e2 : (fun t : Fin 512 => k0_pay2 (F := Ideal) q (keyTile K ⟨k, hk⟩) (ix2 r t))
        = fun t => ((scTile qr kr r k t : ℝ) : EReal) := funext fun t => score_tile q K qr kr hq hK r ⟨k, hk⟩ t
    have e3 : k0_pay3 (F := Ideal) q (keyTile K ⟨k, hk⟩) (loopSt q K X k).2.1 (ix2 r (0 : Fin 1))
        = max ((loopSt q K X k).2.1 (ix2 r (0 : Fin 1)))
            (Finset.univ.fold max (⊥ : EReal) (fun t : Fin 512 => ((scTile qr kr r k t : ℝ) : EReal))) := by
      rw [pay3_apply, e2]
    show rowSt (loopSt q K X ((⟨k, hk⟩ : Fin k0_t1_loop.trips).val + 1)) r f = trip (scTile qr kr r k) (xTile xr f k) (run (scTile qr kr r) (xTile xr f) k)
    rw [hs, ← ih]
    unfold rowSt trip
    dsimp only
    rw [pay16_eq, pay6_apply, pay7_apply, pay5_apply, e3]
    refine Prod.ext rfl (Prod.ext ?_ ?_)
    · dsimp only
      refine congrArg (_ * _ + ·) (Finset.sum_congr rfl fun t _ => ?_)
      rw [pay4_apply, e3, score_tile q K qr kr hq hK r ⟨k, hk⟩ t]
    · dsimp only
      refine congrArg (_ * _ + ·) (Finset.sum_congr rfl fun t _ => ?_)
      rw [pay4_apply, e3, score_tile q K qr kr hq hK r ⟨k, hk⟩ t, value_tile X xr hX f ⟨k, hk⟩ t]

include hq hK hX in
/-- The tile's result at row r, feature f: the softmax-weighted mean over all 4096 key rows, in max-free form. -/
theorem tileOut_apply (u : Fin 1) (r : Fin 1024) (f : Fin 128) :
    tileOut q K X (ix3 u r f)
      = (((∑ t : Fin 4096, Real.exp (sc qr kr r t.val) * xr t.val f) / (∑ t : Fin 4096, Real.exp (sc qr kr r t.val)) : ℝ) : EReal) := by
  unfold tileOut
  rw [pay1_apply]
  have h := loopSt_row q K X qr kr xr hq hK hX r f k0_t1_loop.trips (le_refl _)
  have ha : (loopSt q K X k0_t1_loop.trips).1 (ix2 r f) = (run (scTile qr kr r) (xTile xr f) k0_t1_loop.trips).2.2 :=
    congrArg (fun p => p.2.2) h
  have hl : (loopSt q K X k0_t1_loop.trips).2.2 (ix2 r (0 : Fin 1)) = (run (scTile qr kr r) (xTile xr f) k0_t1_loop.trips).2.1 :=
    congrArg (fun p => p.2.1) h
  rw [ha, hl, trips_eq, run_div (scTile qr kr r) (xTile xr f) 8 (by norm_num)]
  unfold scTile xTile
  rw [Cert.BlockSum.sum_range_blocks 8 512 (fun n => Real.exp (sc qr kr r n) * xr n f) (by norm_num : 8 * 512 = 4096),
    Cert.BlockSum.sum_range_blocks 8 512 (fun n => Real.exp (sc qr kr r n)) (by norm_num : 8 * 512 = 4096)]

end Row

end Cert.KernelIdeal.KRow
end
-- ==== Proof.KProj.lean ====
/-
  The projection payloads read at an index, on the extended reals.

  The query tile and (at a batch's first tile) the key rows are projected by the same affine map: the block times the
  transposed weight matrix, plus the offset broadcast over rows. At coordinates (r, d) that is
  Σ_f block[r,f]·W[d,f] + c[d], the sum over all 128 (padded) features. The value cache is the batch's value block itself.
-/
import proofs.«178170_j39676907882803_2_alg».proof.Proof.KRow

set_option maxRecDepth 16384

noncomputable section
open Idealize.ShloMosaic Idealize.ShloMosaic.TcCoe Idealize.SL.Sem Idealize.ShloMosaic.ValueIdx

namespace Cert.KernelIdeal.KRow
open Cert.KernelIdeal Cert.KernelIdeal.Gen Cert.KernelIdeal.KV

variable (wv : Vec Ideal S64x128 .f32) (bv : Vec Ideal S64 .f32)

/-- The weight matrix as the contractions take it: transposed, entry (f, d) is W[d, f]. -/
theorem pay8T_apply (f : Fin 128) (d : Fin 64) :
    transpose S128x64 [1, 0] (k0_pay8 (F := Ideal) wv) transposes_S64x128_p1_0_S128x64 (ix2 f d) = wv (ix2 d f) := by
  rw [transpose_ix2_apply]
  unfold k0_pay8
  rw [truncf_apply, shapeCast_self]

/-- The offset broadcast over n rows reads c[d] everywhere on column d. -/
theorem bias_apply {n : ℕ} (h : S1x64.Broadcasts ⟨2, ![n, 64]⟩) (p : Fin n) (d : Fin 64) :
    broadcastTo ⟨2, ![n, 64]⟩ (shapeCast S1x64 bv shapeCasts_S64_S1x64) h (ix2 p d) = bv (ix1 d) := by
  rw [broadcastTo_1b_ab_apply, shapeCast_a_1a_apply]

/-- The projected query tile. -/
theorem pay12_apply (xq : Vec Ideal S1x1024x128 .f32) (r : Fin 1024) (d : Fin 64) :
    k0_pay12 (F := Ideal) wv bv xq (ix2 r d)
      = (∑ f : Fin 128, xq (ix3 (0 : Fin 1) r f) * wv (ix2 d f)) + bv (ix1 d) := by
  unfold k0_pay12
  rw [truncf_apply, addf_apply, bias_apply]
  congr 1
  simp only [matmul]
  rw [dot_q, Cert.PlainMatmul.plain_apply]
  refine Finset.sum_congr rfl fun f _ => ?_
  rw [pay8T_apply, truncf_apply, shapeCast_1ab_ab_apply]

/-- The value cache: the batch's value block. -/
theorem pay10_apply (xk : Vec Ideal S1x4096x128 .f32) (t : Fin 4096) (f : Fin 128) :
    k0_pay10 (F := Ideal) xk (ix2 t f) = xk (ix3 (0 : Fin 1) t f) := by
  unfold k0_pay10 k0_pay9
  rw [shapeCast_self, truncf_apply, shapeCast_1ab_ab_apply]

/-- The key cache: the batch's value rows, projected. -/
theorem pay11_apply (xk : Vec Ideal S1x4096x128 .f32) (t : Fin 4096) (d : Fin 64) :
    k0_pay11 (F := Ideal) wv bv xk (ix2 t d)
      = (∑ f : Fin 128, xk (ix3 (0 : Fin 1) t f) * wv (ix2 d f)) + bv (ix1 d) := by
  unfold k0_pay11
  rw [shapeCast_self, truncf_apply, addf_apply, bias_apply]
  congr 1
  simp only [matmul]
  rw [dot_k, Cert.PlainMatmul.plain_apply]
  refine Finset.sum_congr rfl fun f _ => ?_
  rw [pay8T_apply]
  unfold k0_pay9
  rw [truncf_apply, shapeCast_1ab_ab_apply]

end Cert.KernelIdeal.KRow
end
-- ==== Proof.KPoint.lean ====
/-
  What the output block and the two caches hold after each grid point, in closed form.

  The grid runs batch-major: points 4b, 4b+1, 4b+2, 4b+3 are the four query tiles of batch b. The first of them fills
  the caches from the batch's value rows; the other three find them as the first left them. So after ANY point the
  caches hold the projected keys and the values of the point's batch — stated here through the batch's first point,
  4·(n/4) — and the output block is the point's query tile run against exactly those.
-/
import proofs.«178170_j39676907882803_2_alg».proof.Proof.KPiece

set_option maxRecDepth 16384

noncomputable section
open Idealize.ShloMosaic Idealize.ShloMosaic.TcCoe Idealize.SL.Sem
open Idealize.ShloMosaic.Pipeline (Dat)

namespace Cert.KernelIdeal.KV
open Cert.KernelIdeal Cert.KernelIdeal.Gen
variable {F : FTy → Type} [FloatOps F]

variable (m : (ℓ : Loc nD τ sig) → Buf (Elt F) ℓ)

/-- The first grid point of the batch that point n belongs to. -/
def firstOf (n : ℕ) (h : n < cfg0.N) : Fin cfg0.N :=
  ⟨4 * (n / 4), by have hN : cfg0.N = 16 := N_0; omega⟩

/-- The projected keys of the batch whose first point is t. -/
def keysAt (c : Dev nD) (t : Fin cfg0.N) : Vec F S4096x64 .bf16 := k0_pay11 (iblk m c 2 t) (iblk m c 3 t) (iblk m c 1 t)

/-- The value rows of the batch whose first point is t. -/
def valsAt (c : Dev nD) (t : Fin cfg0.N) : Vec F S4096x128 .bf16 := k0_pay10 (iblk m c 1 t)

/-- Output block and caches after point n. -/
def closed (c : Dev nD) (n : ℕ) (h : n < cfg0.N) : Vec F S1x1024x128 .f32 × Vec F S4096x64 .bf16 × Vec F S4096x128 .bf16 :=
  (tileOut (k0_pay12 (iblk m c 2 ⟨n, h⟩) (iblk m c 3 ⟨n, h⟩) (iblk m c 0 ⟨n, h⟩)) (keysAt m c (firstOf n h)) (valsAt m c (firstOf n h)),
   keysAt m c (firstOf n h), valsAt m c (firstOf n h))

theorem firstOf_self (n : ℕ) (h : n < cfg0.N) (h0 : n % 4 = 0) : firstOf n h = ⟨n, h⟩ :=
  Fin.ext (by show 4 * (n / 4) = n; omega)

theorem firstOf_succ (n : ℕ) (h : n + 1 < cfg0.N) (h0 : ¬(n + 1) % 4 = 0) :
    firstOf (n + 1) h = firstOf n (Nat.lt_of_succ_lt h) :=
  Fin.ext (by show 4 * ((n + 1) / 4) = 4 * (n / 4); omega)

/-- By induction on the point: a batch's first point fills the caches, the later ones keep them. -/
theorem outsAt_eq (c : Dev nD) : ∀ (n : ℕ) (h : n < cfg0.N), outsAt0 m c n h = closed m c n h
  | 0, h => by
    rw [outsAt0_A m c ⟨0, h⟩ rfl, out_A_4, sout_A_3, sout_A_4]
    unfold closed keysAt valsAt
    rw [firstOf_self 0 h rfl]
  | n + 1, h => by
    by_cases h0 : (n + 1) % 4 = 0
    · rw [outsAt0_A m c ⟨n + 1, h⟩ h0, out_A_4, sout_A_3, sout_A_4]
      unfold closed keysAt valsAt
      rw [firstOf_self (n + 1) h h0]
    · rw [outsAt0_B m c ⟨n + 1, h⟩ h0, out_B_4]
      unfold sout0_B_3 sout0_B_4
      show (tileOut _ (outsAt0 m c n _).2.1 (outsAt0 m c n _).2.2, (outsAt0 m c n _).2.1, (outsAt0 m c n _).2.2) = _
      rw [outsAt_eq c n]
      unfold closed
      rw [firstOf_succ n h h0]

end Cert.KernelIdeal.KV
end
-- ==== Proof.KArr.lean ====
/-
  The arrays the region finds, and its blocks, at coordinates — over real inputs.

  Before the region the three float inputs with 127 features get a 128th feature column of zeros; the offset vector is
  passed as it is. With inputs that are coercions of real arrays, each padded array is the coercion of the real array
  with a zero column appended. Grid point t is query tile t mod 4 of batch t div 4: its query block is rows
  1024·(t mod 4) … of batch t div 4 of the padded x1, its value block is all of batch t div 4 of the padded x2, and the
  weight and offset blocks are the whole arrays.
-/
import proofs.«178170_j39676907882803_2_alg».proof.Proof.KPoint
import proofs.«178170_j39676907882803_2_alg».proof.Proof.AttnSpec
import Idealize.ShloMosaic.Lib.KernelVsHost
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KArr
open Cert.KernelIdeal Cert.KernelIdeal.Gen Cert.KernelIdeal.KV Cert.AttnSpec

/-- A [4,4096,127] real array with a zero feature column appended. -/
def padx (r : SX.Idx → ℝ) (b : Fin 4) (s : Fin 4096) (f : Fin 128) : ℝ :=
  if h : f.val < 127 then r (ix3 b s ⟨f.val, h⟩) else 0

/-- The weight matrix with a zero column appended. -/
def padw (w : SW.Idx → ℝ) (d : Fin 64) (f : Fin 128) : ℝ :=
  if h : f.val < 127 then w (ix2 d ⟨f.val, h⟩) else 0

/-- The padded column contributes 0·0: a padded row against a padded weight row sums over the 127 true features. -/
theorem sum_pad (r : SX.Idx → ℝ) (w : SW.Idx → ℝ) (b : Fin 4) (s : Fin 4096) (d : Fin 64) :
    ∑ f : Fin 128, padx r b s f * padw w d f = ∑ f : Fin 127, r (ix3 b s f) * w (ix2 d f) := by
  rw [Fin.sum_univ_castSucc]
  have hl : padx r b s (Fin.last 127) = 0 := dif_neg (by simp)
  rw [hl, zero_mul, add_zero]
  refine Finset.sum_congr rfl fun f _ => ?_
  have hf : (Fin.castSucc f).val < 127 := f.isLt
  unfold padx padw
  rw [dif_pos hf, dif_pos hf]
  rfl

variable (m : (ℓ : Loc nD τ sig) → Buf (Elt Ideal) ℓ)

/-! ## The padded arrays -/

theorem V_v0 (c : Dev nD) :
    (V m c main_v0 : S4x4096x128.Idx → EReal)
      = pad S4x4096x128 ![0, 0, 0] ![0, 0, 1] ![0, 0, 0] (m ((c : Thread nD τ).loc main_arg0))
          (sitofp (F := Ideal) .f32 (constantI S_ 32 0#32)) pads_S4x4096x127_S4x4096x128_000_000_010 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

theorem V_v1 (c : Dev nD) :
    (V m c main_v1 : S4x4096x128.Idx → EReal)
      = pad S4x4096x128 ![0, 0, 0] ![0, 0, 1] ![0, 0, 0] (m ((c : Thread nD τ).loc main_arg1))
          (sitofp (F := Ideal) .f32 (constantI S_ 32 0#32)) pads_S4x4096x127_S4x4096x128_000_000_010 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

theorem V_v2 (c : Dev nD) :
    (V m c main_v2 : S64x128.Idx → EReal)
      = pad S64x128 ![0, 0] ![0, 1] ![0, 0] (m ((c : Thread nD τ).loc main_arg2))
          (sitofp (F := Ideal) .f32 (constantI S_ 32 0#32)) pads_S64x127_S64x128_000_010 h_S_ := by
  dsimp only [V, V0]
  simp only [hostOps0, hostOps0_1, hostOps0_2, hostOps0_3, hostOps0_4, hostOps0_5, List.flatten_cons, List.flatten_nil,
    List.append_nil, List.cons_append, List.nil_append]
  after_results
  rfl

/-- The padding value: the integer 0 converted. -/
theorem pad_zero (i : S_.Idx) : sitofp (F := Ideal) .f32 (constantI S_ 32 0#32) i = (0 : EReal) := by
  show (((0#32 : BitVec 32).toInt : ℝ) : EReal) = 0
  simp

/-- A rank-3 array padded by one zero column, at coordinates. -/
theorem pad3_apply (x : S4x4096x127.Idx → EReal) (r : SX.Idx → ℝ) (hx : x = fun i => ((r i : ℝ) : EReal))
    (b : Fin 4) (s : Fin 4096) (f : Fin 128) :
    pad S4x4096x128 ![0, 0, 0] ![0, 0, 1] ![0, 0, 0] x (sitofp (F := Ideal) .f32 (constantI S_ 32 0#32))
        pads_S4x4096x127_S4x4096x128_000_000_010 h_S_ (ix3 b s f) = ((padx r b s f : ℝ) : EReal) := by
  unfold padx
  by_cases h : f.val < 127
  · rw [dif_pos h, pad_apply_of_inside _ _ _ x _ _ _ (ix3 b s f) (ix3 b s ⟨f.val, h⟩) (fun a => by
      match a with
      | ⟨0, _⟩ => show b.val = 0 + b.val * (0 + 1); omega
      | ⟨1, _⟩ => show s.val = 0 + s.val * (0 + 1); omega
      | ⟨2, _⟩ => show f.val = 0 + f.val * (0 + 1); omega), hx]
  · rw [dif_neg h, pad_apply_of_not_inside _ _ _ x _ _ _ (ix3 b s f) (2 : Fin 3) (fun hc => h (by
      have := hc.2.2
      have e : ((ix3 b s f : S4x4096x128.Idx) ((2 : Fin 3).cast pads_S4x4096x127_S4x4096x128_000_000_010.1)).val = f.val := rfl
      rw [e] at this
      simpa using this)), pad_zero]
    rfl

/-- The weight matrix padded by one zero column, at coordinates. -/
theorem pad2_apply (x : S64x127.Idx → EReal) (w : SW.Idx → ℝ) (hx : x = fun i => ((w i : ℝ) : EReal))
    (d : Fin 64) (f : Fin 128) :
    pad S64x128 ![0, 0] ![0, 1] ![0, 0] x (sitofp (F := Ideal) .f32 (constantI S_ 32 0#32))
        pads_S64x127_S64x128_000_010 h_S_ (ix2 d f) = ((padw w d f : ℝ) : EReal) := by
  unfold padw
  by_cases h : f.val < 127
  · rw [dif_pos h, pad_apply_of_inside _ _ _ x _ _ _ (ix2 d f) (ix2 d ⟨f.val, h⟩) (fun a => by
      match a with
      | ⟨0, _⟩ => show d.val = 0 + d.val * (0 + 1); omega
      | ⟨1, _⟩ => show f.val = 0 + f.val * (0 + 1); omega), hx]
  · rw [dif_neg h, pad_apply_of_not_inside _ _ _ x _ _ _ (ix2 d f) (1 : Fin 2) (fun hc => h (by
      have := hc.2.2
      have e : ((ix2 d f : S64x128.Idx) ((1 : Fin 2).cast pads_S64x127_S64x128_000_010.1)).val = f.val := rfl
      rw [e] at this
      simpa using this)), pad_zero]
    rfl

/-! ## The blocks at coordinates -/

theorem idx0 : ∀ t : Fin cfg0.N, win0_0.index t 0 = t.val / 4 ∧ win0_0.index t 1 = t.val % 4 ∧ win0_0.index t 2 = 0 :=
  (by decide +kernel : ∀ t : Fin grid0.N, _)
theorem idx1 : ∀ t : Fin cfg0.N, win0_1.index t 0 = t.val / 4 ∧ win0_1.index t 1 = 0 ∧ win0_1.index t 2 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 :=
  (by decide +kernel : ∀ t : Fin grid0.N, _)
theorem idx4 : ∀ t : Fin cfg0.N, win0_4.index t 0 = t.val / 4 ∧ win0_4.index t 1 = t.val % 4 ∧ win0_4.index t 2 = 0 :=
  (by decide +kernel : ∀ t : Fin grid0.N, _)

theorem batch_lt (t : Fin cfg0.N) : t.val / 4 < 4 := by
  have h := t.isLt; have hN : cfg0.N = 16 := N_0; omega
theorem row_lt (t : Fin cfg0.N) (r : Fin 1024) : 1024 * (t.val % 4) + r.val < 4096 := by
  have := r.isLt; omega

/-- The batch of point t. -/
def batchOf (t : Fin cfg0.N) : Fin 4 := ⟨t.val / 4, batch_lt t⟩
/-- Row r of point t's query tile, as a row of the batch. -/
def rowOf (t : Fin cfg0.N) (r : Fin 1024) : Fin 4096 := ⟨1024 * (t.val % 4) + r.val, row_lt t r⟩

theorem iblk0_apply (c : Dev nD) (t : Fin cfg0.N) (u : Fin 1) (r : Fin 1024) (f : Fin 128) :
    iblk m c 0 t (ix3 u r f) = V m c main_v0 (ix3 (batchOf t) (rowOf t r) f) := by
  unfold iblk
  rw [View.read_apply]
  show V m c main_v0 _ = V m c main_v0 _
  refine congrArg (V m c main_v0) (funext fun a => Fin.ext ?_)
  have hu : u.val = 0 := by omega
  match a with
  | ⟨0, _⟩ => show win0_0.index t 0 * 1 + 1 * u.val = t.val / 4; rw [(idx0 t).1]; omega
  | ⟨1, _⟩ => show win0_0.index t 1 * 1024 + 1 * r.val = 1024 * (t.val % 4) + r.val; rw [(idx0 t).2.1]; omega
  | ⟨2, _⟩ => show win0_0.index t 2 * 128 + 1 * f.val = f.val; rw [(idx0 t).2.2]; omega

theorem iblk1_apply (c : Dev nD) (t : Fin cfg0.N) (u : Fin 1) (s : Fin 4096) (f : Fin 128) :
    iblk m c 1 t (ix3 u s f) = V m c main_v1 (ix3 (batchOf t) s f) := by
  unfold iblk
  rw [View.read_apply]
  show V m c main_v1 _ = V m c main_v1 _
  refine congrArg (V m c main_v1) (funext fun a => Fin.ext ?_)
  have hu : u.val = 0 := by omega
  match a with
  | ⟨0, _⟩ => show win0_1.index t 0 * 1 + 1 * u.val = t.val / 4; rw [(idx1 t).1]; omega
  | ⟨1, _⟩ => show win0_1.index t 1 * 4096 + 1 * s.val = s.val; rw [(idx1 t).2.1]; omega
  | ⟨2, _⟩ => show win0_1.index t 2 * 128 + 1 * f.val = f.val; rw [(idx1 t).2.2]; omega

theorem iblk2_apply (c : Dev nD) (t : Fin cfg0.N) (d : Fin 64) (f : Fin 128) :
    iblk m c 2 t (ix2 d f) = V m c main_v2 (ix2 d f) := by
  unfold iblk
  rw [View.read_apply]
  show V m c main_v2 _ = V m c main_v2 _
  refine congrArg (V m c main_v2) (funext fun a => Fin.ext ?_)
  match a with
  | ⟨0, _⟩ => show win0_2.index t 0 * 64 + 1 * d.val = d.val; rw [(idx2 t).1]; omega
  | ⟨1, _⟩ => show win0_2.index t 1 * 128 + 1 * f.val = f.val; rw [(idx2 t).2]; omega

theorem iblk3_apply (c : Dev nD) (t : Fin cfg0.N) (d : Fin 64) :
    iblk m c 3 t (ix1 d) = V m c main_arg3 (ix1 d) := by
  unfold iblk
  rw [View.read_apply]
  show V m c main_arg3 _ = V m c main_arg3 _
  refine congrArg (V m c main_arg3) (funext fun a => Fin.ext ?_)
  match a with
  | ⟨0, _⟩ => show win0_3.index t 0 * 64 + 1 * d.val = d.val; rw [idx3 t]; omega

/-- Where point t's output block sits in the [4,4096,128] result. -/
theorem emb4_apply (t : Fin cfg0.N) (u : Fin 1) (r : Fin 1024) (f : Fin 128) :
    ((cfg0.win 4).blk t).view.emb (ix3 u r f) = ix3 (batchOf t) (rowOf t r) f := by
  refine funext fun a => Fin.ext ?_
  have hu : u.val = 0 := by omega
  match a with
  | ⟨0, _⟩ => show win0_4.index t 0 * 1 + 1 * u.val = t.val / 4; rw [(idx4 t).1]; omega
  | ⟨1, _⟩ => show win0_4.index t 1 * 1024 + 1 * r.val = 1024 * (t.val % 4) + r.val; rw [(idx4 t).2.1]; omega
  | ⟨2, _⟩ => show win0_4.index t 2 * 128 + 1 * f.val = f.val; rw [(idx4 t).2.2]; omega

end Cert.KernelIdeal.KArr
end
-- ==== Proof.KTile.lean ====
/-
  One grid point's output block is the specification's attention of its rows (over real inputs).

  The blocks of point t are real-valued: the query block is rows 1024·(t mod 4) … of batch t div 4 of x1 with a zero
  column, and so on. Sums over the 128 padded features lose the padded term (0·0), so the projected query tile and the
  projected key rows are the specification's projections, the tile's scores the specification's scores, and the value
  cache is x2's batch with a zero column. The running softmax of each row then gives, at feature f, the max-free
  quotient (Σ_t e^{score}·x2pad[t,f]) / (Σ_t e^{score}): the specification's attention for f < 127, and 0 in the padded
  column.
-/
import proofs.«178170_j39676907882803_2_alg».proof.Proof.KProj
import proofs.«178170_j39676907882803_2_alg».proof.Proof.KArr

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KTile
open Cert.KernelIdeal Cert.KernelIdeal.Gen Cert.KernelIdeal.KV Cert.KernelIdeal.KRow Cert.KernelIdeal.KArr Cert.AttnSpec
open Cert.OnlineSoftmax (coe_finsum)

/-- The attention over the padded value rows: all 128 columns of the kernel's result. -/
def attnP (r1 r2 : SX.Idx → ℝ) (w : SW.Idx → ℝ) (cb : SB.Idx → ℝ) (b : Fin 4) (s : Fin 4096) (f : Fin 128) : ℝ :=
  (∑ t : Fin 4096, Real.exp (score r1 r2 w cb b s t) * padx r2 b t f) / (∑ t : Fin 4096, Real.exp (score r1 r2 w cb b s t))

/-- The kernel's whole [4,4096,128] result. -/
def Gk (r1 r2 : SX.Idx → ℝ) (w : SW.Idx → ℝ) (cb : SB.Idx → ℝ) : S4x4096x128.Idx → EReal :=
  fun j => ((attnP r1 r2 w cb (j 0) (j 1) (j 2) : ℝ) : EReal)

variable (m : (ℓ : Loc nD τ sig) → Buf (Elt Ideal) ℓ) (r1 r2 : SX.Idx → ℝ) (w : SW.Idx → ℝ) (cb : SB.Idx → ℝ) (c : Dev nD)
  (h0 : m ((c : Thread nD τ).loc main_arg0) = fun i => ((r1 i : ℝ) : EReal))
  (h1 : m ((c : Thread nD τ).loc main_arg1) = fun i => ((r2 i : ℝ) : EReal))
  (h2 : m ((c : Thread nD τ).loc main_arg2) = fun i => ((w i : ℝ) : EReal))
  (h3 : m ((c : Thread nD τ).loc main_arg3) = fun i => ((cb i : ℝ) : EReal))

include h0 in
theorem x1blk (t : Fin cfg0.N) (u : Fin 1) (r : Fin 1024) (f : Fin 128) :
    iblk m c 0 t (ix3 u r f) = ((padx r1 (batchOf t) (rowOf t r) f : ℝ) : EReal) := by
  rw [iblk0_apply, congrFun (V_v0 m c) _, pad3_apply _ r1 h0]

include h1 in
theorem x2blk (t : Fin cfg0.N) (u : Fin 1) (s : Fin 4096) (f : Fin 128) :
    iblk m c 1 t (ix3 u s f) = ((padx r2 (batchOf t) s f : ℝ) : EReal) := by
  rw [iblk1_apply, congrFun (V_v1 m c) _, pad3_apply _ r2 h1]

include h2 in
theorem wblk (t : Fin cfg0.N) (d : Fin 64) (f : Fin 128) :
    iblk m c 2 t (ix2 d f) = ((padw w d f : ℝ) : EReal) := by
  rw [iblk2_apply, congrFun (V_v2 m c) _, pad2_apply _ w h2]

include h3 in
theorem bblk (t : Fin cfg0.N) (d : Fin 64) :
    iblk m c 3 t (ix1 d) = ((cb (ix1 d) : ℝ) : EReal) := by
  rw [iblk3_apply, V_main_arg3, h3]

include h0 h2 h3 in
/-- The projected query tile of point t is the specification's projection of its rows. -/
theorem q_val (t : Fin cfg0.N) (r : Fin 1024) (d : Fin 64) :
    k0_pay12 (F := Ideal) (iblk m c 2 t) (iblk m c 3 t) (iblk m c 0 t) (ix2 r d)
      = ((proj r1 w cb (batchOf t) (rowOf t r) d : ℝ) : EReal) := by
  rw [pay12_apply]
  unfold proj
  rw [← sum_pad r1 w, EReal.coe_add, coe_finsum, bblk m cb c h3]
  congr 1
  refine Finset.sum_congr rfl fun f _ => ?_
  rw [x1blk m r1 c h0, wblk m w c h2, EReal.coe_mul]

include h1 h2 h3 in
/-- The key cache a batch's first point fills is the specification's projection of the batch's value rows. -/
theorem k_val (t : Fin cfg0.N) (s : Fin 4096) (d : Fin 64) :
    keysAt m c t (ix2 s d) = ((proj r2 w cb (batchOf t) s d : ℝ) : EReal) := by
  unfold keysAt
  rw [pay11_apply]
  unfold proj
  rw [← sum_pad r2 w, EReal.coe_add, coe_finsum, bblk m cb c h3]
  congr 1
  refine Finset.sum_congr rfl fun f _ => ?_
  rw [x2blk m r2 c h1, wblk m w c h2, EReal.coe_mul]

include h1 in
/-- The value cache is the batch's value rows with the zero column. -/
theorem x_val (t : Fin cfg0.N) (s : Fin 4096) (f : Fin 128) :
    valsAt m c t (ix2 s f) = ((padx r2 (batchOf t) s f : ℝ) : EReal) := by
  unfold valsAt
  rw [pay10_apply, x2blk m r2 c h1]

theorem batch_first (n : ℕ) (h : n < cfg0.N) : batchOf (firstOf n h) = batchOf ⟨n, h⟩ :=
  Fin.ext (by show 4 * (n / 4) / 4 = n / 4; omega)

include h0 h1 h2 h3 in
/-- Point t's output block, at row r and column f, is the padded attention of row (batch of t, row of r). -/
theorem tile_value (t : Fin cfg0.N) (u : Fin 1) (r : Fin 1024) (f : Fin 128) :
    (closed m c t.val t.isLt).1 (ix3 u r f) = Gk r1 r2 w cb (ix3 (batchOf t) (rowOf t r) f) := by
  unfold closed
  dsimp only
  rw [tileOut_apply _ _ _
        (fun r d => proj r1 w cb (batchOf t) (rowOf t r) d)
        (fun n d => if h : n < 4096 then proj r2 w cb (batchOf t) ⟨n, h⟩ d else 0)
        (fun n f => if h : n < 4096 then padx r2 (batchOf t) ⟨n, h⟩ f else 0)
        (fun r d => q_val m r1 w cb c h0 h2 h3 t r d)
        (fun s d => by rw [k_val m r2 w cb c h1 h2 h3, batch_first, dif_pos s.isLt])
        (fun s f => by rw [x_val m r2 c h1, batch_first, dif_pos s.isLt])]
  show _ = ((attnP r1 r2 w cb (batchOf t) (rowOf t r) f : ℝ) : EReal)
  unfold attnP score sc
  simp only [Fin.is_lt, dite_true, Fin.eta]

end Cert.KernelIdeal.KTile
end
-- ==== Proof.KFinal.lean ====
/-
  From blocks to the array, the slice after the region, and the kernel's run.

  Every grid point writes its output block back, and the sixteen blocks (4 batches × 4 row tiles, all 128 columns) tile
  the [4,4096,128] result: entry (b, s, ·) lies in the block of point 4b + s div 1024. So the result array ends
  holding the padded attention everywhere. The program then keeps columns 0 … 126, which drops the padded column and
  leaves the specification's attention.
-/
import proofs.«178170_j39676907882803_2_alg».proof.Proof.KTile

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KFinal
open Cert.KernelIdeal Cert.KernelIdeal.Gen Cert.KernelIdeal.KV Cert.KernelIdeal.KArr Cert.KernelIdeal.KTile Cert.AttnSpec

variable (m : (ℓ : Loc nD τ sig) → Buf (Elt Ideal) ℓ) (r1 r2 : SX.Idx → ℝ) (w : SW.Idx → ℝ) (cb : SB.Idx → ℝ) (c : Dev nD)
  (h0 : m ((c : Thread nD τ).loc main_arg0) = fun i => ((r1 i : ℝ) : EReal))
  (h1 : m ((c : Thread nD τ).loc main_arg1) = fun i => ((r2 i : ℝ) : EReal))
  (h2 : m ((c : Thread nD τ).loc main_arg2) = fun i => ((w i : ℝ) : EReal))
  (h3 : m ((c : Thread nD τ).loc main_arg3) = fun i => ((cb i : ℝ) : EReal))

include h0 h1 h2 h3 in
theorem flushed_apply (t : Fin cfg0.N) (y : S1x1024x128.Idx) :
    (closed m c t.val t.isLt).1 y = Gk r1 r2 w cb (((cfg0.win 4).blk t).view.emb y) := by
  obtain ⟨u, r, f, rfl⟩ : ∃ u r f, y = ix3 u r f := ⟨y 0, y 1, y 2, eq_ix3 y⟩
  rw [emb4_apply, tile_value m r1 r2 w cb c h0 h1 h2 h3]

include h0 h1 h2 h3 in
/-- What point t writes back is block t of the padded attention. -/
theorem flushed_eq (t : Fin cfg0.N) :
    (dats m 0 c).flushed 4 t = ((cfg0.win 4).blk t).view.read (Elt Ideal) (Gk r1 r2 w cb) := by
  show (cfg0.win 4).cut (grid0.coords t) ((dats m 0 c).after 4 t) = _
  rw [after0_4, outsAt_eq]
  funext j
  rw [View.read_apply]
  exact flushed_apply m r1 r2 w cb c h0 h1 h2 h3 t j

/-- An entry of the result is in point t's block iff each coordinate is in the block's range. -/
theorem mem_blk4 (t : Fin cfg0.N) (i : S4x4096x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v3).slice (win0_4.rect t)).set ↔ _
  rw [View.set_slice_whole, Rect.mem_set_unit]
  exact Iff.rfl

/-- The sixteen blocks cover the result: entry (b, s, ·) is in the block of point 4b + s div 1024. -/
theorem cover4 (i : S4x4096x128.Idx) :
    ∃ t : Fin cfg0.N, (cfg0.win 4).flush t = true ∧ i ∈ ((cfg0.win 4).blk t).view.set := by
  have hN : cfg0.N = 16 := N_0
  have hi0 : (i 0).val < 4 := (i 0).isLt
  have hi1 : (i 1).val < 4096 := (i 1).isLt
  have hi2 : (i 2).val < 128 := (i 2).isLt
  refine ⟨⟨4 * (i 0).val + (i 1).val / 1024, by omega⟩, flush0_4 _, ?_⟩
  rw [mem_blk4]
  intro a
  obtain ⟨e0, e1, e2⟩ := idx4 ⟨4 * (i 0).val + (i 1).val / 1024, by omega⟩
  match a with
  | ⟨0, _⟩ =>
    show win0_4.index _ 0 * 1 ≤ (i 0).val ∧ (i 0).val < win0_4.index _ 0 * 1 + 1
    rw [e0]; dsimp only; omega
  | ⟨1, _⟩ =>
    show win0_4.index _ 1 * 1024 ≤ (i 1).val ∧ (i 1).val < win0_4.index _ 1 * 1024 + 1024
    rw [e1]; dsimp only; omega
  | ⟨2, _⟩ =>
    show win0_4.index _ 2 * 128 ≤ (i 2).val ∧ (i 2).val < win0_4.index _ 2 * 128 + 128
    rw [e2]; omega

include h0 h1 h2 h3 in
/-- The region's result array ends holding the padded attention. -/
theorem final4 : (dats m 0 c).arrAt 4 cfg0.N = Gk r1 r2 w cb :=
  (dats m 0 c).arrAt_eq_of_cover 4 (Gk r1 r2 w cb) (fun t _ => flushed_eq m r1 r2 w cb c h0 h1 h2 h3 t) cover4

/-- Dropping the padded column of the padded attention leaves the specification's attention. -/
theorem slice_Gk :
    extractStridedSlice S4x4096x127 ![0, 0, 0] (Gk r1 r2 w cb) slices_S4x4096x128_S4x4096x127_0_0_0 = G r1 r2 w cb := by
  funext i
  obtain ⟨b, s, f, rfl⟩ : ∃ b s f, i = ix3 b s f := ⟨i 0, i 1, i 2, eq_ix3 i⟩
  have hf : f.val < 128 := by have := f.isLt; omega
  rw [extractStridedSlice_apply _ _ _ (ix3 b s f) (ix3 b s ⟨f.val, hf⟩) (fun a => by
    match a with
    | ⟨0, _⟩ => show b.val = 0 + b.val; omega
    | ⟨1, _⟩ => show s.val = 0 + s.val; omega
    | ⟨2, _⟩ => show f.val = 0 + f.val; omega)]
  show ((attnP r1 r2 w cb b s ⟨f.val, hf⟩ : ℝ) : EReal) = ((attn r1 r2 w cb b s f : ℝ) : EReal)
  unfold attnP attn padx
  simp only [f.isLt, dite_true, Fin.eta]

include h0 h1 h2 h3 in
/-- The program's result: the slice of what the region left. -/
theorem tail_eq :
    Pipeline.afterTail₀ cfgs (dats m) 0 (V0 m) [hostOps1] c main_v4 = G r1 r2 w cb := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Gk r1 r2 w cb :=
    (Pipeline.withArrays_arr spec0 launch0.win.arr_inj c _ _ 4).trans (final4 m r1 r2 w cb c h0 h1 h2 h3)
  rw [e]
  exact slice_Gk r1 r2 w cb

/-- The kernel's run: the result is the specification's attention of the real inputs, the arguments are unchanged. -/
theorem run (m : (ℓ : Loc nD τ sig) → Buf (Elt Ideal) ℓ) (ρ : Dev nD → PrngReg)
    (R1 R2 : Dev nD → SX.Idx → ℝ) (Wf : Dev nD → SW.Idx → ℝ) (Cf : Dev nD → SB.Idx → ℝ)
    (H0 : ∀ c : Dev nD, m ((c : Thread nD τ).loc main_arg0) = fun i => ((R1 c i : ℝ) : EReal))
    (H1 : ∀ c : Dev nD, m ((c : Thread nD τ).loc main_arg1) = fun i => ((R2 c i : ℝ) : EReal))
    (H2 : ∀ c : Dev nD, m ((c : Thread nD τ).loc main_arg2) = fun i => ((Wf c i : ℝ) : EReal))
    (H3 : ∀ c : Dev nD, m ((c : Thread nD τ).loc main_arg3) = fun i => ((Cf c i : ℝ) : EReal)) :
    θ_run defs (onTc (τ := τ) (main (F := Ideal))) ⟨m, fun _ => 0, ρ⟩ (fun r => ∀ c : Dev nD,
      r.2.mem ((c.tc : Thread nD τ).loc main_v4) = G (R1 c) (R2 c) (Wf c) (Cf c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans
        (tail_eq m (R1 c) (R2 c) (Wf c) (Cf c) c (H0 c) (H1 c) (H2 c) (H3 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c)))⟩)
    (run_main m ρ)

end Cert.KernelIdeal.KFinal
end
-- ==== Proof.lean ====
/-
  A tiled attention kernel with a running softmax equals plain softmax attention on the extended reals.

  Both programs compute, for real inputs x1, x2 : [4,4096,127], W : [64,127], c : [64],
      out[b,s,f] = Σ_t softmax_t(8 · ⟨x1[b,s]·Wᵀ + c, x2[b,t]·Wᵀ + c⟩) · x2[b,t,f].
  The reference does it directly: scores, the row maximum subtracted, exponentials, each divided by their sum, then the
  weighted sum of the value rows. The kernel pads the 127 features with a zero column (which adds 0·0 to every
  projection and a zero column to the result, sliced off at the end), cuts the queries into 16 tiles of 1024 rows, keeps
  per batch a cache of the projected keys and of the values, and for each query tile walks the 4096 key rows in 8 tiles
  of 512 with a running maximum m, a running denominator l and a running accumulator a, rescaling l and a by e^{m − m'}
  whenever the maximum moves; it stores a / l. Since e^{s − m}·e^{m − m'} = e^{s − m'}, after the last tile
  l = Σ_t e^{s_t − μ} and a = Σ_t e^{s_t − μ}·x2[t,f] for the final μ, so a / l = (Σ_t e^{s_t}·x2[t,f]) / (Σ_t e^{s_t}) —
  and the reference's softmax, which subtracts the row maximum instead of μ, is the same quotient. The laws used
  (distributing a factor over a sum, cancelling e^{−μ}) need real numbers: the finiteness precondition makes every input
  entry real, hence every score. The first −∞ of the running maximum is harmless: e^{−∞} = 0 multiplies the zero initial
  sums.

  The frames of the two kernel programs are the generated ones; the reference's frame is its generated run with the
  result forgotten; the idealization rewrote nothing. The value side is in the modules imported below: the
  specification (AttnSpec), the running softmax against the plain one (OnlineSoftmax), the reference read entry by entry
  (RefAttn), the inputs made real (FiniteInputs), and the kernel read from its stores up to the final array
  (KLoop, KPiece, KPoint, KRow, KProj, KArr, KTile, KFinal).
-/
import proofs.«178170_j39676907882803_2_alg».proof.Defs
import proofs.«178170_j39676907882803_2_alg».proof.Proof.Gen.Kernel
import proofs.«178170_j39676907882803_2_alg».proof.Proof.Gen.Kernel.Skeleton
import proofs.«178170_j39676907882803_2_alg».proof.Proof.Gen.Kernel.Loops
import proofs.«178170_j39676907882803_2_alg».proof.Proof.Gen.Kernel.Launch
import proofs.«178170_j39676907882803_2_alg».proof.Proof.Gen.Kernel.Points
import proofs.«178170_j39676907882803_2_alg».proof.Proof.Gen.Kernel.Frame
import proofs.«178170_j39676907882803_2_alg».proof.Proof.Gen.KernelIdeal
import proofs.«178170_j39676907882803_2_alg».proof.Proof.Gen.KernelIdeal.Skeleton
import proofs.«178170_j39676907882803_2_alg».proof.Proof.Gen.KernelIdeal.Loops
import proofs.«178170_j39676907882803_2_alg».proof.Proof.Gen.KernelIdeal.Launch
import proofs.«178170_j39676907882803_2_alg».proof.Proof.Gen.KernelIdeal.Points
import proofs.«178170_j39676907882803_2_alg».proof.Proof.Gen.KernelIdeal.Frame
import proofs.«178170_j39676907882803_2_alg».proof.Proof.Gen.ReferenceIdeal
import proofs.«178170_j39676907882803_2_alg».proof.Proof.Gen.ReferenceIdeal.Run
import proofs.«178170_j39676907882803_2_alg».proof.Proof.Gen.ReferenceIdeal.Read
import proofs.«178170_j39676907882803_2_alg».proof.Proof.Gen.Pre_finite_inputs
import proofs.«178170_j39676907882803_2_alg».proof.Proof.FiniteInputs
import proofs.«178170_j39676907882803_2_alg».proof.Proof.RefAttn
import proofs.«178170_j39676907882803_2_alg».proof.Proof.KFinal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Under finite inputs both programs end at the specification's attention of the (real) inputs. -/
theorem algebraic : Cert.algebraic_KernelIdeal_ReferenceIdeal := by
  intro m ρ m' ρ' hpre hagree
  have hreal := fun c => Cert.FiniteInputs.reals_of_pre _ _ _ _ (hpre c)
  choose r1 r2 w cb hr using hreal
  refine ⟨fun c => Cert.AttnSpec.G (r1 c) (r2 c) (w c) (cb c), ?_, ?_⟩
  · exact Cert.KernelIdeal.KFinal.run m ρ r1 r2 w cb (fun c => (hr c).1) (fun c => (hr c).2.1) (fun c => (hr c).2.2.1)
      (fun c => (hr c).2.2.2)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2,
      (hr c).1, (hr c).2.1, (hr c).2.2.1, (hr c).2.2.2]
    exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
